-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1024x1024 : Shape := ⟨2, ![1024, 1024]⟩
abbrev S256x1024 : Shape := ⟨2, ![256, 1024]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S8192x4096, .bf16⟩
  | .hbm, ⟨6, _⟩ => ⟨S1x4096, .f32⟩
  | .hbm, ⟨7, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def k0_mult1 : BitVec 32 :=
  let c0_i32_9 : BitVec 32 := 0#32
  let c256_i32 : BitVec 32 := 256#32
  let v16 : BitVec 32 := Scalar.muli c0_i32_9 c256_i32
  v16
def k0_off1 (c0_i32_9 : BitVec 32) : Fin 2 → Nat :=
  let c256_i32 : BitVec 32 := 256#32
  let v16 : BitVec 32 := Scalar.muli c0_i32_9 c256_i32
  let v17 : BitVec 32 := v16
  let v18 : Index := Scalar.indexCast v17
  let c0_10 : Index := 0#32
  ![v18.toNat, 0]
def k0_mult2 : BitVec 32 :=
  let c1_i32 : BitVec 32 := 1#32
  let c256_i32_16 : BitVec 32 := 256#32
  let v36 : BitVec 32 := Scalar.muli c1_i32 c256_i32_16
  v36
def k0_mult3 : BitVec 32 :=
  let c2_i32 : BitVec 32 := 2#32
  let c256_i32_23 : BitVec 32 := 256#32
  let v56 : BitVec 32 := Scalar.muli c2_i32 c256_i32_23
  v56
def k0_mult4 : BitVec 32 :=
  let c3_i32_30 : BitVec 32 := 3#32
  let c256_i32_31 : BitVec 32 := 256#32
  let v76 : BitVec 32 := Scalar.muli c3_i32_30 c256_i32_31
  v76
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S256x1024 : 0 < S256x1024.numel
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S1024x1024_S1024x1024_S1024x1024_1_1_0_0_n_n_wf : DotDims.WF S1024x1024 S1024x1024 S1024x1024 [1] [1] [0] [0] [] []
  hrank0 : 0 < grid0.rank
  k0_mult1_dvd : ∀ i : grid0.Coords, ∀ (k0_h2 : k0_cond2 i = 1#1), 256 ∣ k0_mult1.toNat
  k0_off1_inb : ∀ i : grid0.Coords, ∀ (k0_h2 : k0_cond2 i = 1#1), ∀ (r : Fin 4), ∀ a, (k0_off1 (BitVec.ofNat 32 r.val)) a + S256x1024.size a ≤ S1024x1024.size a
  k0_off1_packedbf16 : ∀ i : grid0.Coords, ∀ (k0_h2 : k0_cond2 i = 1#1), ∀ (r : Fin 4), (Rect.unit (s := S1024x1024) (k0_off1 (BitVec.ofNat 32 r.val)) S256x1024.size (k0_off1_inb i k0_h2 r)).PackedRows (EltTy.packing .bf16)
  k0_mult2_dvd : ∀ i : grid0.Coords, ∀ (k0_h2 : k0_cond2 i = 1#1), 256 ∣ k0_mult2.toNat
  k0_mult3_dvd : ∀ i : grid0.Coords, ∀ (k0_h2 : k0_cond2 i = 1#1), 256 ∣ k0_mult3.toNat
  k0_mult4_dvd : ∀ i : grid0.Coords, ∀ (k0_h2 : k0_cond2 i = 1#1), 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .bf16 = 32 ∨ (Rect.block (s := S8192x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BitsMatmulCases.lean ====
/-
  The first kernel region: a grid of 8 × 4 × 4 points, the last axis the block of the contraction. At every point the body
  adds the product of the two loaded blocks into a single-precision accumulator it keeps in a scratch buffer between points;
  at the first block of the contraction it zeroes the accumulator before, and at the last it applies the GELU to the
  accumulator, a quarter of the rows at a time, and stores the result into its output block. So a point is in one of three
  cases, decided by its position along the contraction alone. Here: the two conditions in closed form over the grid, where
  the output window is idle, the memrefs the body is called with, and the region's untouched scoped rest with the
  accumulator's buffer named.
-/
import proofs.«124898_j3556232922249_2_alg».proof.Proof.Gen.Kernel.Launch
import proofs.«124898_j3556232922249_2_alg».proof.Proof.Gen.Kernel.Skeleton
import proofs.«124898_j3556232922249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first block of the contraction", as the body computes it from the grid coordinates. -/
abbrev atFirst (i : grid0.Coords) : Prop := (Scalar.cmpi .ne (Scalar.extui (Scalar.cmpi .eq (BitVec.ofNat 32 (i 2).val) 0#32)) 0#32) = 1#1
/-- It holds at the points ≡ 0 (mod 4). -/
theorem atFirst_iff : ∀ t : Fin cfg0.N, atFirst (grid0.coords t) ↔ t.val % 4 = 0 :=
  (by decide +kernel : ∀ t : Fin grid0.N, atFirst (grid0.coords t) ↔ t.val % 4 = 0)

/-- "This is the last block of the contraction". -/
abbrev atLast (i : grid0.Coords) : Prop := k0_cond2 i = 1#1
/-- It holds at the points ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Off the last block the output window is idle and not written back; at the last block it is live. -/
theorem idle0_2 : ∀ t : Fin cfg0.N, ¬atLast (grid0.coords t) → cfg0.idle 2 (grid0.coords t) = true := by decide +kernel
theorem noFlush0_2 : ∀ t : Fin cfg0.N, ¬atLast (grid0.coords t) → (cfg0.win 2).flush t = false := by decide +kernel
theorem live0_2 : ∀ t : Fin cfg0.N, atLast (grid0.coords t) → cfg0.idle 2 (grid0.coords t) = false := by decide +kernel

/-- One staging buffer of the output window and the accumulator's buffer, as views: contents are stated through them. -/
abbrev outView : View sig .tc .vmem S1024x1024 .bf16 := (Memref.whole cc0_stg2_0 : Memref sig .tc .vmem S1024x1024 .bf16).view
abbrev accM : Memref sig .tc .vmem S1024x1024 .f32 := Memref.whole cc0_scratch0
abbrev accView : View sig .tc .vmem S1024x1024 .f32 := accM.view
/-- Each window's current staging memref at point `t`, as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)

/-- The second region's five staging buffers, each whole at some contents: scoped buffers this region never touches. -/
def laterStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's untouched rest with the accumulator's buffer as a memref owned at some contents. -/
theorem restA0_eq (c : Dev nD) :
    (Pipeline.ΦA spec0 c : sProp 𝕄)
      = iprop(iprop((∃ d, owns (c : Thread nD τ) accM fullShare d) ∗ laterStaging (F := F) c) ∗ (∃ r, prngReg c r)) := by
  unfold Pipeline.ΦA laterStaging; rw [scopedRest0_eq]; simp only [accM, owns_whole]; try rfl

end Cert.Kernel.Hand

end
-- ==== Proof.BitsMatmulRunA.lean ====
/-
  The body of the first kernel region at the first block of the contraction and not the last: the accumulator is zeroed, then the blocks' product added; the output's buffer is handed back as found. The accumulator's buffer (and the output's, when stored) ends holding what the body's
  stores write: each piece is a rectangle of the buffer with the value stored there, a function of the blocks the body
  loaded and of the accumulator it found.
-/
import proofs.«124898_j3556232922249_2_alg».proof.Proof.BitsMatmulCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces each buffer ends with, with the proof that on whole staging memrefs the body runs to the continuation
    holding the inputs' as they were and those pieces written. -/
noncomputable def matmulRunA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_gelu_kernel i arg3 harg3 arg4 harg4 arg5 harg5 arg6 harg6) K } := by
  refine ⟨[], ?_, fun xi2 E K => ?run⟩
  case run =>
    simp only [cc0__matmul_gelu_kernel_eq_skeleton]; unfold cc0__matmul_gelu_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BitsMatmulRunB.lean ====
/-
  The body of the first kernel region strictly inside the contraction: the blocks' product is added to the accumulator the point before left; the output's buffer is handed back as found. The accumulator's buffer (and the output's, when stored) ends holding what the body's
  stores write: each piece is a rectangle of the buffer with the value stored there, a function of the blocks the body
  loaded and of the accumulator it found.
-/
import proofs.«124898_j3556232922249_2_alg».proof.Proof.BitsMatmulCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces each buffer ends with, with the proof that on whole staging memrefs the body runs to the continuation
    holding the inputs' as they were and those pieces written. -/
noncomputable def matmulRunB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_gelu_kernel i arg3 harg3 arg4 harg4 arg5 harg5 arg6 harg6) K } := by
  refine ⟨[], ?_, fun xi2 E K => ?run⟩
  case run =>
    simp only [cc0__matmul_gelu_kernel_eq_skeleton]; unfold cc0__matmul_gelu_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.BitsMatmulRunC.lean ====
/-
  The body of the first kernel region at the last block of the contraction: the blocks' product is added to the accumulator the point before left, and the GELU of the accumulator is stored into the output's buffer a quarter of the rows at a time. The accumulator's buffer (and the output's, when stored) ends holding what the body's
  stores write: each piece is a rectangle of the buffer with the value stored there, a function of the blocks the body
  loaded and of the accumulator it found.
-/
import proofs.«124898_j3556232922249_2_alg».proof.Proof.BitsMatmulCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces each buffer ends with, with the proof that on whole staging memrefs the body runs to the continuation
    holding the inputs' as they were and those pieces written. -/
noncomputable def matmulRunC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_gelu_kernel i arg3 harg3 arg4 harg4 arg5 harg5 arg6 harg6) K } := by
  refine ⟨?_, ?_, fun E K => ?run⟩
  case run =>
    simp only [cc0__matmul_gelu_kernel_eq_skeleton]; unfold cc0__matmul_gelu_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.BitsMatmulBody.lean ====
/-
  The first kernel region, point by point. What each case of the body leaves in the accumulator's buffer and in the
  output's staging buffer (its pieces read back; they tile the buffer, so they cover it); what the two hold after each
  point, by recursion on the point — off the first block of the contraction a case starts from the accumulator the point
  before left —; the region's invariant, which names the accumulator's contents from the second point on; the proof data;
  and the obligation at every point, the case chosen by the point's position along the contraction.
-/
import proofs.«124898_j3556232922249_2_alg».proof.Proof.BitsMatmulRunA
import proofs.«124898_j3556232922249_2_alg».proof.Proof.BitsMatmulRunB
import proofs.«124898_j3556232922249_2_alg».proof.Proof.BitsMatmulRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first region, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input's staging buffer holds the point's block, fetched at every point. -/
theorem found0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-! ## What each case leaves -/

/-- At the first block the body stores nothing into the output: a placeholder nothing consults. -/
def outA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) : Vec F S1024x1024 .bf16 :=
  outView.read (Elt F) (outView.writes (Elt F) outView.junk (matmulRunA c i arg3 harg3 arg4 harg4 arg5 harg5 arg6 harg6 hc0 hc1 x0 x1).1)
/-- Its pieces for the accumulator tile the buffer, so they cover it. -/
theorem accCoverA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) (y : S1024x1024.Idx) :
    ∃ pc ∈ (matmulRunA c i arg3 harg3 arg4 harg4 arg5 harg5 arg6 harg6 hc0 hc1 x0 x1).2.1, y ∈ pc.1.set :=
  View.cover_of_tiledL (matmulRunA c i arg3 harg3 arg4 harg4 arg5 harg5 arg6 harg6 hc0 hc1 x0 x1).2.1 S1024x1024.size (by sl_kernel_rfl) y
/-- What it leaves in the accumulator. -/
def accA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) : Vec F S1024x1024 .f32 :=
  accView.read (Elt F) (accView.writes (Elt F) accView.junk (matmulRunA c i arg3 harg3 arg4 harg4 arg5 harg5 arg6 harg6 hc0 hc1 x0 x1).2.1)

/-- Inside the contraction the body stores nothing into the output either. -/
def outB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) : Vec F S1024x1024 .bf16 :=
  outView.read (Elt F) (outView.writes (Elt F) outView.junk (matmulRunB c i arg3 harg3 arg4 harg4 arg5 harg5 arg6 harg6 hc0 hc1 x0 x1 xs0).1)
theorem accCoverB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) (y : S1024x1024.Idx) :
    ∃ pc ∈ (matmulRunB c i arg3 harg3 arg4 harg4 arg5 harg5 arg6 harg6 hc0 hc1 x0 x1 xs0).2.1, y ∈ pc.1.set :=
  View.cover_of_tiledL (matmulRunB c i arg3 harg3 arg4 harg4 arg5 harg5 arg6 harg6 hc0 hc1 x0 x1 xs0).2.1 S1024x1024.size (by sl_kernel_rfl) y
def accB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) : Vec F S1024x1024 .f32 :=
  accView.read (Elt F) (accView.writes (Elt F) accView.junk (matmulRunB c i arg3 harg3 arg4 harg4 arg5 harg5 arg6 harg6 hc0 hc1 x0 x1 xs0).2.1)

/-- At the last block the four quarter-stores tile the output's buffer, so they cover it. -/
theorem outCoverC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) (y : S1024x1024.Idx) :
    ∃ pc ∈ (matmulRunC c i arg3 harg3 arg4 harg4 arg5 harg5 arg6 harg6 hc0 hc1 x0 x1 xs0).1, y ∈ pc.1.set :=
  View.cover_of_tiledL (matmulRunC c i arg3 harg3 arg4 harg4 arg5 harg5 arg6 harg6 hc0 hc1 x0 x1 xs0).1 S256x1024.size (by sl_kernel_rfl) y
def outC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) : Vec F S1024x1024 .bf16 :=
  outView.read (Elt F) (outView.writes (Elt F) outView.junk (matmulRunC c i arg3 harg3 arg4 harg4 arg5 harg5 arg6 harg6 hc0 hc1 x0 x1 xs0).1)
theorem accCoverC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) (y : S1024x1024.Idx) :
    ∃ pc ∈ (matmulRunC c i arg3 harg3 arg4 harg4 arg5 harg5 arg6 harg6 hc0 hc1 x0 x1 xs0).2.1, y ∈ pc.1.set :=
  View.cover_of_tiledL (matmulRunC c i arg3 harg3 arg4 harg4 arg5 harg5 arg6 harg6 hc0 hc1 x0 x1 xs0).2.1 S1024x1024.size (by sl_kernel_rfl) y
def accC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) : Vec F S1024x1024 .f32 :=
  accView.read (Elt F) (accView.writes (Elt F) accView.junk (matmulRunC c i arg3 harg3 arg4 harg4 arg5 harg5 arg6 harg6 hc0 hc1 x0 x1 xs0).2.1)

/-! ## What the two buffers hold after each point -/

/-- After the body at position `n`: the output's staging buffer and the accumulator. The case is the position's residue
    mod 4; off the first block it starts from the accumulator position `n - 1` left. -/
def holdsAt0 (c : Dev nD) : (n : ℕ) → n < cfg0.N → Vec F S1024x1024 .bf16 × Vec F S1024x1024 .f32
  | 0, hn => (outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((atFirst_iff ⟨0, hn⟩).mpr (Nat.zero_mod _)) (fun h => (fun h => by (try dsimp only at h); omega) ((atLast_iff ⟨0, hn⟩).mp h)) (blockAt0 V c 0 ⟨0, hn⟩) (blockAt0 V c 1 ⟨0, hn⟩),
      accA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((atFirst_iff ⟨0, hn⟩).mpr (Nat.zero_mod _)) (fun h => (fun h => by (try dsimp only at h); omega) ((atLast_iff ⟨0, hn⟩).mp h)) (blockAt0 V c 0 ⟨0, hn⟩) (blockAt0 V c 1 ⟨0, hn⟩))
  | n + 1, hn =>
    if h0 : (n + 1) % 4 = 0 then
      if h1 : (n + 1) % 4 = 3 then
        False.elim (by omega)
      else
        (outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((atFirst_iff ⟨n + 1, hn⟩).mpr h0) (fun h => h1 ((atLast_iff ⟨n + 1, hn⟩).mp h)) (blockAt0 V c 0 ⟨n + 1, hn⟩) (blockAt0 V c 1 ⟨n + 1, hn⟩),
          accA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((atFirst_iff ⟨n + 1, hn⟩).mpr h0) (fun h => h1 ((atLast_iff ⟨n + 1, hn⟩).mp h)) (blockAt0 V c 0 ⟨n + 1, hn⟩) (blockAt0 V c 1 ⟨n + 1, hn⟩))
    else
      if h1 : (n + 1) % 4 = 3 then
        (outC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) ((atLast_iff ⟨n + 1, hn⟩).mpr h1) (blockAt0 V c 0 ⟨n + 1, hn⟩) (blockAt0 V c 1 ⟨n + 1, hn⟩) (holdsAt0 c n (Nat.lt_of_succ_lt hn)).2,
          accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) ((atLast_iff ⟨n + 1, hn⟩).mpr h1) (blockAt0 V c 0 ⟨n + 1, hn⟩) (blockAt0 V c 1 ⟨n + 1, hn⟩) (holdsAt0 c n (Nat.lt_of_succ_lt hn)).2)
      else
        (outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) (fun h => h1 ((atLast_iff ⟨n + 1, hn⟩).mp h)) (blockAt0 V c 0 ⟨n + 1, hn⟩) (blockAt0 V c 1 ⟨n + 1, hn⟩) (holdsAt0 c n (Nat.lt_of_succ_lt hn)).2,
          accB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) (fun h => h1 ((atLast_iff ⟨n + 1, hn⟩).mp h)) (blockAt0 V c 0 ⟨n + 1, hn⟩) (blockAt0 V c 1 ⟨n + 1, hn⟩) (holdsAt0 c n (Nat.lt_of_succ_lt hn)).2)

/-- At a point on the first block of the contraction. -/
theorem holdsAt0_A (c : Dev nD) (t : Fin cfg0.N) (h0 : t.val % 4 = 0) (h1 : ¬t.val % 4 = 3) :
    holdsAt0 V c t.val t.isLt = (outA c (grid0.coords t) (ms0_0 t) (hs0_0 t) (ms0_1 t) (hs0_1 t) (ms0_2 t) (hs0_2 t) accM (Memref.isWhole_whole _) ((atFirst_iff t).mpr h0) (fun h => h1 ((atLast_iff t).mp h)) (blockAt0 V c 0 t) (blockAt0 V c 1 t),
      accA c (grid0.coords t) (ms0_0 t) (hs0_0 t) (ms0_1 t) (hs0_1 t) (ms0_2 t) (hs0_2 t) accM (Memref.isWhole_whole _) ((atFirst_iff t).mpr h0) (fun h => h1 ((atLast_iff t).mp h)) (blockAt0 V c 0 t) (blockAt0 V c 1 t)) := by
  obtain ⟨n, hn⟩ := t
  cases n with
  | zero => exact rfl
  | succ n => exact (dif_pos h0).trans ((dif_neg h1).trans rfl)

/-- At a point strictly inside the contraction. -/
theorem holdsAt0_B (c : Dev nD) (t : Fin cfg0.N) (h0 : ¬t.val % 4 = 0) (h1 : ¬t.val % 4 = 3) :
    holdsAt0 V c t.val t.isLt = (outB c (grid0.coords t) (ms0_0 t) (hs0_0 t) (ms0_1 t) (hs0_1 t) (ms0_2 t) (hs0_2 t) accM (Memref.isWhole_whole _) (fun h => h0 ((atFirst_iff t).mp h)) (fun h => h1 ((atLast_iff t).mp h)) (blockAt0 V c 0 t) (blockAt0 V c 1 t) (holdsAt0 V c (t.val - 1) (Nat.lt_of_le_of_lt (Nat.sub_le _ _) t.isLt)).2,
      accB c (grid0.coords t) (ms0_0 t) (hs0_0 t) (ms0_1 t) (hs0_1 t) (ms0_2 t) (hs0_2 t) accM (Memref.isWhole_whole _) (fun h => h0 ((atFirst_iff t).mp h)) (fun h => h1 ((atLast_iff t).mp h)) (blockAt0 V c 0 t) (blockAt0 V c 1 t) (holdsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point on the last block of the contraction. -/
theorem holdsAt0_C (c : Dev nD) (t : Fin cfg0.N) (h0 : ¬t.val % 4 = 0) (h1 : t.val % 4 = 3) :
    holdsAt0 V c t.val t.isLt = (outC c (grid0.coords t) (ms0_0 t) (hs0_0 t) (ms0_1 t) (hs0_1 t) (ms0_2 t) (hs0_2 t) accM (Memref.isWhole_whole _) (fun h => h0 ((atFirst_iff t).mp h)) ((atLast_iff t).mpr h1) (blockAt0 V c 0 t) (blockAt0 V c 1 t) (holdsAt0 V c (t.val - 1) (Nat.lt_of_le_of_lt (Nat.sub_le _ _) t.isLt)).2,
      accC c (grid0.coords t) (ms0_0 t) (hs0_0 t) (ms0_1 t) (hs0_1 t) (ms0_2 t) (hs0_2 t) accM (Memref.isWhole_whole _) (fun h => h0 ((atFirst_iff t).mp h)) ((atLast_iff t).mpr h1) (blockAt0 V c 0 t) (blockAt0 V c 1 t) (holdsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the untouched scoped rest, the accumulator at anything; afterwards the
    accumulator at what the point before left, the second region's staging buffers and the generator register as found. -/
def accInv (c : Dev nD) : (n : ℕ) → n ≤ cfg0.N → sProp 𝕄
  | 0, _ => Pipeline.ΦA spec0 c
  | n + 1, hn => iprop(iprop(owns (c : Thread nD τ) accM fullShare ((holdsAt0 V c n hn).2) ∗ laterStaging (F := F) c) ∗ (∃ r, prngReg c r))

theorem accInv_zero (c : Dev nD) (n : ℕ) (h : n ≤ cfg0.N) (hz : n = 0) : accInv V c n h = Pipeline.ΦA spec0 c := by
  subst hz; rfl
theorem accInv_succ (c : Dev nD) (n : ℕ) (hn : n < cfg0.N) :
    accInv V c (n + 1) hn = iprop(iprop(owns (c : Thread nD τ) accM fullShare ((holdsAt0 V c n hn).2) ∗ laterStaging (F := F) c) ∗ (∃ r, prngReg c r)) := rfl
theorem accInv_pos (c : Dev nD) (n : ℕ) (h : n ≤ cfg0.N) (hz : n ≠ 0) :
    accInv V c n h = iprop(iprop(owns (c : Thread nD τ) accM fullShare ((holdsAt0 V c (n - 1) (by omega)).2) ∗ laterStaging (F := F) c) ∗ (∃ r, prngReg c r)) := by
  cases n with
  | zero => exact absurd rfl hz
  | succ n => rfl

/-! ## The proof data -/

/-- The first region's proof data on core `c`: the arrays as the region finds them; after the body each input's buffer at
    its block and the output's at `holdsAt0`'s first component; the invariant `accInv`; nothing owed; full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => (holdsAt0 V c t.val t.isLt).1
  Φ t := accInv V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem accInv_castSucc (c : Dev nD) (t : Fin cfg0.N) :
    (dat0 V c).Φ t.castSucc = accInv V c t.val (Nat.le_of_lt t.isLt) := by
  dsimp only [dat0]; simp only [Fin.coe_castSucc]
theorem after0_0 (c : Dev nD) (t : Fin cfg0.N) : (dat0 V c).after 0 t = blockAt0 V c 0 t := by dsimp only [dat0]
theorem after0_1 (c : Dev nD) (t : Fin cfg0.N) : (dat0 V c).after 1 t = blockAt0 V c 1 t := by dsimp only [dat0]
theorem after0_2 (c : Dev nD) (t : Fin cfg0.N) : (dat0 V c).after 2 t = (holdsAt0 V c t.val t.isLt).1 := by dsimp only [dat0]
theorem found0_0 (c : Dev nD) (t : Fin cfg0.N) (d) : (dat0 V c).before 0 t d = blockAt0 V c 0 t :=
  found0_0_of V (dat0 V c) (A_eq0 V c 0) (after0_0 V c) t d
theorem found0_1 (c : Dev nD) (t : Fin cfg0.N) (d) : (dat0 V c).before 1 t d = blockAt0 V c 1 t :=
  found0_1_of V (dat0 V c) (A_eq0 V c 1) (after0_1 V c) t d

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position's residue mod 4 says which case runs; the
    invariant hands the body the accumulator at what the point before left (at anything before the first point) and takes
    it back at this point's contents; off the last block the output's buffer comes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (dat0 V c).owesAt () t.succ = (dat0 V c).owesAt () t.castSucc from rfl]
  rw [show (dat0 V c).Φ t.succ = accInv V c (t.val + 1) t.isLt from rfl, accInv_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · by_cases h1 : t.val % 4 = 3
    · exfalso; omega
    · rw [Dat.leavesExact_idle (dat0 V c) 2 t (idle0_2 t (fun h => h1 ((atLast_iff t).mp h))) (noFlush0_2 t (fun h => h1 ((atLast_iff t).mp h)))]
      rw [holdsAt0_A V c t h0 h1]
      unfold accA; (try dsimp only)
      by_cases hz : t.val = 0
      · rw [accInv_castSucc V c t, accInv_zero V c _ _ hz, restA0_eq]
        iintro ⟨⟨⟨HS0, Hl⟩, Hg⟩, Ho, ⟨%d0, H0⟩, ⟨%d1, H1⟩, ⟨%d2, H2⟩⟩
        iapply ((matmulRunA c (grid0.coords t) _ _ _ _ _ _ _ _ ((atFirst_iff t).mpr h0) (fun h => h1 ((atLast_iff t).mp h)) (blockAt0 V c 0 t) (blockAt0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hl Hg]
        · isplitl [HS0 Hl]
          · isplitl [HS0]
            · unfold owns; iexists _; isplitr
              swap; · iexact HS0
              ipureintro; exact View.read_writes_of_cover _ _ _ _ _ (accCoverA c _ _ _ _ _ _ _ _ _ _ _ _ _)
            iexact Hl
          iexact Hg
        isplitl [Ho]; · iexact Ho
        isplitl [H0]; · iexact H0
        isplitl [H1]; · iexact H1
        iexists _; iexact H2
      · rw [accInv_castSucc V c t, accInv_pos V c _ _ hz]
        iintro ⟨⟨⟨HS0, Hl⟩, Hg⟩, Ho, ⟨%d0, H0⟩, ⟨%d1, H1⟩, ⟨%d2, H2⟩⟩
        iapply ((matmulRunA c (grid0.coords t) _ _ _ _ _ _ _ _ ((atFirst_iff t).mpr h0) (fun h => h1 ((atLast_iff t).mp h)) (blockAt0 V c 0 t) (blockAt0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hl Hg]
        · isplitl [HS0 Hl]
          · isplitl [HS0]
            · unfold owns; iexists _; isplitr
              swap; · iexact HS0
              ipureintro; exact View.read_writes_of_cover _ _ _ _ _ (accCoverA c _ _ _ _ _ _ _ _ _ _ _ _ _)
            iexact Hl
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat0 V c).leavesExact 2 t = owns (c : Thread nD τ) (ms0_2 t) fullShare ((dat0 V c).after 2 t) from by
        unfold Dat.leavesExact; rw [live0_2 t ((atLast_iff t).mpr h1)], after0_2]
      rw [holdsAt0_C V c t h0 h1]
      unfold outC accC; (try dsimp only)
      rw [accInv_castSucc V c t, accInv_pos V c _ _ hz]
      iintro ⟨⟨⟨HS0, Hl⟩, Hg⟩, Ho, ⟨%d0, H0⟩, ⟨%d1, H1⟩, ⟨%d2, H2⟩⟩
      iapply ((matmulRunC c (grid0.coords t) _ _ _ _ _ _ _ _ (fun h => h0 ((atFirst_iff t).mp h)) ((atLast_iff t).mpr h1) (blockAt0 V c 0 t) (blockAt0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hl Hg]
      · isplitl [HS0 Hl]
        · isplitl [HS0]
          · unfold owns; iexists _; isplitr
            swap; · iexact HS0
            ipureintro; exact View.read_writes_of_cover _ _ _ _ _ (accCoverC c _ _ _ _ _ _ _ _ _ _ _ _ _ _)
          iexact Hl
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC c _ _ _ _ _ _ _ _ _ _ _ _ _ _)
    · rw [Dat.leavesExact_idle (dat0 V c) 2 t (idle0_2 t (fun h => h1 ((atLast_iff t).mp h))) (noFlush0_2 t (fun h => h1 ((atLast_iff t).mp h)))]
      rw [holdsAt0_B V c t h0 h1]
      unfold accB; (try dsimp only)
      rw [accInv_castSucc V c t, accInv_pos V c _ _ hz]
      iintro ⟨⟨⟨HS0, Hl⟩, Hg⟩, Ho, ⟨%d0, H0⟩, ⟨%d1, H1⟩, ⟨%d2, H2⟩⟩
      iapply ((matmulRunB c (grid0.coords t) _ _ _ _ _ _ _ _ (fun h => h0 ((atFirst_iff t).mp h)) (fun h => h1 ((atLast_iff t).mp h)) (blockAt0 V c 0 t) (blockAt0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hl Hg]
      · isplitl [HS0 Hl]
        · isplitl [HS0]
          · unfold owns; iexists _; isplitr
            swap; · iexact HS0
            ipureintro; exact View.read_writes_of_cover _ _ _ _ _ (accCoverB c _ _ _ _ _ _ _ _ _ _ _ _ _ _)
          iexact Hl
        iexact Hg
      isplitl [Ho]; · iexact Ho
      isplitl [H0]; · iexact H0
      isplitl [H1]; · iexact H1
      iexists _; iexact H2

/-- The obligation at every point of the first region. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem accInv_in (c : Dev nD) : Pipeline.ΦA spec0 c ⊢ (dat0 V c).Φ 0 := by
  rw [show (dat0 V c).Φ 0 = accInv V c 0 (Nat.zero_le _) from rfl, accInv_zero V c 0 _ rfl]
  try exact Idealize.SL.BI.Entails.refl _

/-- After the last point the invariant gives the untouched rest back: the accumulator's named contents are forgotten. -/
theorem accInv_out (c : Dev nD) : (dat0 V c).Φ (Fin.last cfg0.N) ⊢ Pipeline.ΦA spec0 c := by
  rw [show (dat0 V c).Φ (Fin.last cfg0.N) = accInv V c (Fin.last cfg0.N).val (Nat.le_of_lt_succ (Fin.last cfg0.N).isLt) from rfl,
    accInv_pos V c _ _ (by rw [Fin.val_last]; have : cfg0.N = 128 := N_0; omega), restA0_eq]
  iintro ⟨⟨HS0, Hl⟩, Hg⟩
  isplitl [HS0 Hl]
  · isplitl [HS0]
    · iexists _; iexact HS0
    iexact Hl
  iexact Hg

end Cert.Kernel.Hand

end
-- ==== Proof.BitsSoftmaxBody.lean ====
/-
  The second kernel region: each grid point takes one block of 256 rows of the activations and the one bias row, and stores
  into its output block, through one whole-block store, the row softmax of the activations plus the bias. Stated at a
  parameter `V`, the contents of the core's buffers when the region is entered: what each window's block is at a point,
  what the body leaves in the output's staging buffer (the one store read back), the body's triple, and the region's proof
  data with the obligation at every point. The body reads its output buffer before storing into it; the value is unused.
-/
import proofs.«124898_j3556232922249_2_alg».proof.Proof.Gen.Kernel.Launch
import proofs.«124898_j3556232922249_2_alg».proof.Proof.Gen.Kernel.Skeleton
import proofs.«124898_j3556232922249_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block of rows, fetched at every point. -/
theorem found1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- The bias row's staging buffer holds the row at every point: fetched at the first, and its block never moves. -/
theorem found1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- The whole block of rows, the whole bias row. -/
abbrev rows1 : Rect S256x4096 := Rect.unit (s := S256x4096) ![0, 0] S256x4096.size inb_S256x4096_S256x4096_0_0
abbrev biasRow1 : Rect S1x4096 := Rect.unit (s := S1x4096) ![0, 0] S1x4096.size inb_S1x4096_S1x4096_0_0

/-- What the body leaves in the output's staging buffer: its one store, of the softmax-plus-bias of the two loaded blocks. -/
def softOut (x0 : Vec F S256x4096 .bf16) (x1 : Vec F S1x4096 .f32) : Vec F S256x4096 .f32 :=
  View.canon [⟨rows1, k1_pay1 (View.ld x0 rows1) (View.ld x1 biasRow1)⟩]

/-- The one store covers the block. -/
theorem softCover (p0 : Vec F S256x4096 .f32) (y : S256x4096.Idx) :
    ∃ pc ∈ ([⟨rows1, p0⟩] : List (View.Piece (Elt F) S256x4096 .f32)), y ∈ pc.1.set :=
  View.cover_of_tiled [⟨rows1, p0⟩] S256x4096.size (by rfl) y

set_option maxHeartbeats 1000000 in
/-- The body on whole staging memrefs, the two inputs' at their contents and the output's at anything, runs to the
    continuation holding the inputs' as they were and the output's at `softOut` of them. -/
theorem softmax_body (c : Dev nD) (E : Set ℕ) (i : grid1.Coords) (arg1 : Memref sig .tc .vmem S256x4096 .bf16) (harg1 : arg1.IsWhole)
    (arg2 : Memref sig .tc .vmem S1x4096 .f32) (harg2 : arg2.IsWhole) (arg3 : Memref sig .tc .vmem S256x4096 .f32) (harg3 : arg3.IsWhole)
    (x0 : Vec F S256x4096 .bf16) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (softOut x0 x1)) -∗ K ⟨⟩))
      ⊢ wp frame (wpE (defs₀ (F := F)) Variants.none c none) E (cc1__softmax_bias_kernel i arg1 harg1 arg2 harg2 arg3 harg3) K := by
  simp only [cc1__softmax_bias_kernel_eq_skeleton]; unfold cc1__softmax_bias_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (softCover _)

/-- The second region's proof data on core `c`: the arrays as the region finds them; after the body each input's buffer at
    its block and the output's at `softOut` of the two; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => softOut (blockAt1 V c 0 t) (blockAt1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blockAt1 V c 0 t := by dsimp only [dat1]
theorem after1_1 (c : Dev nD) (t : Fin cfg1.N) : (dat1 V c).after 1 t = blockAt1 V c 1 t := by dsimp only [dat1]
theorem after1_2 (c : Dev nD) (t : Fin cfg1.N) : (dat1 V c).after 2 t = softOut (blockAt1 V c 0 t) (blockAt1 V c 1 t) := by dsimp only [dat1]

theorem found1_0 (c : Dev nD) (t : Fin cfg1.N) (d) : (dat1 V c).before 0 t d = blockAt1 V c 0 t :=
  found1_0_of V (dat1 V c) (A_eq1 V c 0) (after1_0 V c) t d
theorem found1_1 (c : Dev nD) (t : Fin cfg1.N) (d) : (dat1 V c).before 1 t d = blockAt1 V c 1 t :=
  found1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (softmax_body c Set.univ _ _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation at every point of the second region. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program as a run: two stretches of host operations (the two roundings of the matrices on the way in; the bias
  reshaped to a row) and the two kernel regions between and after them. The contents of the core's unshared buffers at each
  boundary are a fold from the launch memory — a host stretch applies its operations, a region leaves its arrays at what
  its write-backs make of them and every other buffer as it was —; each region is entered from the boundary before it and
  left at the one after it; and every weakly fair execution ends with every such buffer at the last boundary's contents.
  Read at the three arguments that is the frame; read at the result it is the second region's output array.
-/
import proofs.«124898_j3556232922249_2_alg».proof.Proof.BitsMatmulBody
import proofs.«124898_j3556232922249_2_alg».proof.Proof.BitsSoftmaxBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two roundings (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the bias is reshaped to a row (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit1_arr (c : Dev nD) (w : Fin cfg1.W) : (dat1 (V3 m) c).arrAt w cfg1.N = V4 m c (Pipeline.arrRef spec1 w) :=
  (W4_arr m c w).symm
theorem exit1_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No host operation writes an argument, and no region's array is one -/

theorem stretch0_keeps (c : Dev nD) (V : Valuation τ sig (Elt F)) (b : Ref sig .tc) (h0 : b ≠ main_v0) (h1 : b ≠ main_v1) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h0, StableHlo.devRef_ne_of_ne h1⟩))
theorem stretch1_keeps (c : Dev nD) (V : Valuation τ sig (Elt F)) (b : Ref sig .tc) (h3 : b ≠ main_v3) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact StableHlo.devRef_ne_of_ne h3))

/-- A buffer that is none of the five values @main computes reaches the end as launched. -/
theorem W4_of_arg (c : Dev nD) (b : Ref sig .tc) (h0 : b ≠ main_v0) (h1 : b ≠ main_v1) (h2 : b ≠ main_v2) (h3 : b ≠ main_v3) (h4 : b ≠ main_v4) :
    W4 m c (Proc.devRef .tc b) = m ((c : Thread nD τ).loc b) :=
  calc W4 m c (Proc.devRef .tc b)
    _ = W3 m c (Proc.devRef .tc b) := W4_of_ne m c b (fun w => by fin_cases w <;> first | exact fun e => h2 e.symm | exact fun e => h3 e.symm | exact fun e => h4 e.symm)
    _ = W2 m c (Proc.devRef .tc b) := stretch1_keeps c _ b h3
    _ = W1 m c (Proc.devRef .tc b) := W2_of_ne m c b (fun w => by fin_cases w <;> first | exact fun e => h0 e.symm | exact fun e => h1 e.symm | exact fun e => h2 e.symm)
    _ = W0 m c (Proc.devRef .tc b) := stretch0_keeps c _ b h0 h1
    _ = m ((c : Thread nD τ).loc b) := rfl

/-! ## The proof data family and what rides along -/

abbrev noTables : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (V1 m) c
  | ⟨1, _⟩ => fun c => dat1 (V3 m) c
abbrev noVariants : Variants := Variants.none
abbrev noPairs : GSem nD τ sig → Finset Unit := fun _ => ∅
abbrev noLevel : GSem nD τ sig → Unit → ℕ := fun _ _ => 0
/-- Beside the buffers through every segment: the generator register at some state, and the core owing nothing. -/
abbrev rides (c : Dev nD) : sProp 𝕄 := iprop((∃ r, prngReg c r) ∗ ∃ W, owes (c : Thread nD τ) (0 : CellTallies nD τ sig Unit) W)
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides
theorem stretch0_fresh : (hostOps0 : List (HloOp τ sig (Elt F))).Forall fun op => op.fresh = ∅ := by
  simp only [List.Forall]; repeat' constructor
theorem stretch1_fresh : (hostOps1 : List (HloOp τ sig (Elt F))).Forall fun op => op.fresh = ∅ := by
  simp only [List.Forall]; repeat' constructor
theorem mem_unshared (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unshared buffer at `W1`, left at `W2`. -/
def region0 : Pipeline.RegionSeg (pcfgs (F := F)) noTables (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevel 0 fun _ _ => rfl
  pre c := iprop(StableHlo.held (c : Thread nD τ) (Pipeline.ucRefs τ sig) (W1 m c) ∗ rides c)
  post c := iprop(StableHlo.held (c : Thread nD τ) (Pipeline.ucRefs τ sig) (W2 m c) ∗ rides c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (accInv_in (V1 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (accInv_out (V1 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unshared buffer at `W3`, left at `W4`. -/
def region1 : Pipeline.RegionSeg (pcfgs (F := F)) noTables (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs noLevel 1 fun _ _ => rfl
  pre c := iprop(StableHlo.held (c : Thread nD τ) (Pipeline.ucRefs τ sig) (W3 m c) ∗ rides c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segments : List (Pipeline.Seg (pcfgs (F := F)) noTables (pdats m) () defs₀ noVariants noPairs noLevel) :=
  [ .host (stretch hostOps0 hostOps0_sub stretch0_fresh (W0 m)),
    .region (region0 m),
    .host (stretch hostOps1 hostOps1_sub stretch1_fresh (W2 m)),
    .region (region1 m) ]
theorem main_is_segments (c : Dev nD) : main (F := F) c = Pipeline.Seg.run (segments m) := (main_chain c).trans (by chain_rfl)

set_option backward.isDefEq.respectTransparency.types false in
/-- Every weakly fair execution of @main from memory `m` with zero counters terminates, nothing faulting, and every final
    memory holds every unshared buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (pdats m) () cellOf_inj emb₁ defs₀ noVariants noPairs noLevel m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := lastState m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unshared main_arg0 (by decide))).trans (W4_of_arg m c main_arg0 (by decide) (by decide) (by decide) (by decide) (by decide)),
     (h c _ (mem_unshared main_arg1 (by decide))).trans (W4_of_arg m c main_arg1 (by decide) (by decide) (by decide) (by decide) (by decide)),
     (h c _ (mem_unshared main_arg2 (by decide))).trans (W4_of_arg m c main_arg2 (by decide) (by decide) (by decide) (by decide) (by decide))⟩) (run_all m ρ)

/-- The result array ends at what the second region's write-backs make of it, and the arguments as launched. -/
theorem run_result : θ_run defs (onTc (τ := τ) (main (F := F))) ⟨m, fun _ => 0, ρ⟩ (fun r => ∀ c : Dev nD,
      r.2.mem ((c.tc : Thread nD τ).loc main_v4) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unshared main_v4 (by decide))).trans (W4_arr m c 2),
     (h c _ (mem_unshared main_arg0 (by decide))).trans (W4_of_arg m c main_arg0 (by decide) (by decide) (by decide) (by decide) (by decide)),
     (h c _ (mem_unshared main_arg1 (by decide))).trans (W4_of_arg m c main_arg1 (by decide) (by decide) (by decide) (by decide) (by decide)),
     (h c _ (mem_unshared main_arg2 (by decide))).trans (W4_of_arg m c main_arg2 (by decide) (by decide) (by decide) (by decide) (by decide))⟩) (run_all m ρ)

end Cert.Kernel.Hand

end
-- ==== Proof.IdealMatmulCases.lean ====
/-
  The first kernel region: a grid of 8 × 4 × 4 points, the last axis the block of the contraction. At every point the body
  adds the product of the two loaded blocks into a single-precision accumulator it keeps in a scratch buffer between points;
  at the first block of the contraction it zeroes the accumulator before, and at the last it applies the GELU to the
  accumulator, a quarter of the rows at a time, and stores the result into its output block. So a point is in one of three
  cases, decided by its position along the contraction alone. Here: the two conditions in closed form over the grid, where
  the output window is idle, the memrefs the body is called with, and the region's untouched scoped rest with the
  accumulator's buffer named.
-/
import proofs.«124898_j3556232922249_2_alg».proof.Proof.Gen.KernelIdeal.Launch
import proofs.«124898_j3556232922249_2_alg».proof.Proof.Gen.KernelIdeal.Skeleton
import proofs.«124898_j3556232922249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first block of the contraction", as the body computes it from the grid coordinates. -/
abbrev atFirst (i : grid0.Coords) : Prop := (Scalar.cmpi .ne (Scalar.extui (Scalar.cmpi .eq (BitVec.ofNat 32 (i 2).val) 0#32)) 0#32) = 1#1
/-- It holds at the points ≡ 0 (mod 4). -/
theorem atFirst_iff : ∀ t : Fin cfg0.N, atFirst (grid0.coords t) ↔ t.val % 4 = 0 :=
  (by decide +kernel : ∀ t : Fin grid0.N, atFirst (grid0.coords t) ↔ t.val % 4 = 0)

/-- "This is the last block of the contraction". -/
abbrev atLast (i : grid0.Coords) : Prop := k0_cond2 i = 1#1
/-- It holds at the points ≡ 3 (mod 4). -/
theorem atLast_iff : ∀ t : Fin cfg0.N, atLast (grid0.coords t) ↔ t.val % 4 = 3 :=
  (by decide +kernel : ∀ t : Fin grid0.N, atLast (grid0.coords t) ↔ t.val % 4 = 3)

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Off the last block the output window is idle and not written back; at the last block it is live. -/
theorem idle0_2 : ∀ t : Fin cfg0.N, ¬atLast (grid0.coords t) → cfg0.idle 2 (grid0.coords t) = true := by decide +kernel
theorem noFlush0_2 : ∀ t : Fin cfg0.N, ¬atLast (grid0.coords t) → (cfg0.win 2).flush t = false := by decide +kernel
theorem live0_2 : ∀ t : Fin cfg0.N, atLast (grid0.coords t) → cfg0.idle 2 (grid0.coords t) = false := by decide +kernel

/-- One staging buffer of the output window and the accumulator's buffer, as views: contents are stated through them. -/
abbrev outView : View sig .tc .vmem S1024x1024 .bf16 := (Memref.whole cc0_stg2_0 : Memref sig .tc .vmem S1024x1024 .bf16).view
abbrev accM : Memref sig .tc .vmem S1024x1024 .f32 := Memref.whole cc0_scratch0
abbrev accView : View sig .tc .vmem S1024x1024 .f32 := accM.view
/-- Each window's current staging memref at point `t`, as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)

/-- The second region's five staging buffers, each whole at some contents: scoped buffers this region never touches. -/
def laterStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's untouched rest with the accumulator's buffer as a memref owned at some contents. -/
theorem restA0_eq (c : Dev nD) :
    (Pipeline.ΦA spec0 c : sProp 𝕄)
      = iprop(iprop((∃ d, owns (c : Thread nD τ) accM fullShare d) ∗ laterStaging (F := F) c) ∗ (∃ r, prngReg c r)) := by
  unfold Pipeline.ΦA laterStaging; rw [scopedRest0_eq]; simp only [accM, owns_whole]; try rfl

end Cert.KernelIdeal.Hand

end
-- ==== Proof.IdealMatmulRunA.lean ====
/-
  The body of the first kernel region at the first block of the contraction and not the last: the accumulator is zeroed, then the blocks' product added; the output's buffer is handed back as found. The accumulator's buffer (and the output's, when stored) ends holding what the body's
  stores write: each piece is a rectangle of the buffer with the value stored there, a function of the blocks the body
  loaded and of the accumulator it found.
-/
import proofs.«124898_j3556232922249_2_alg».proof.Proof.IdealMatmulCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces each buffer ends with, with the proof that on whole staging memrefs the body runs to the continuation
    holding the inputs' as they were and those pieces written. -/
noncomputable def matmulRunA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_gelu_kernel i arg3 harg3 arg4 harg4 arg5 harg5 arg6 harg6) K } := by
  refine ⟨[], ?_, fun xi2 E K => ?run⟩
  case run =>
    simp only [cc0__matmul_gelu_kernel_eq_skeleton]; unfold cc0__matmul_gelu_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IdealMatmulRunB.lean ====
/-
  The body of the first kernel region strictly inside the contraction: the blocks' product is added to the accumulator the point before left; the output's buffer is handed back as found. The accumulator's buffer (and the output's, when stored) ends holding what the body's
  stores write: each piece is a rectangle of the buffer with the value stored there, a function of the blocks the body
  loaded and of the accumulator it found.
-/
import proofs.«124898_j3556232922249_2_alg».proof.Proof.IdealMatmulCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces each buffer ends with, with the proof that on whole staging memrefs the body runs to the continuation
    holding the inputs' as they were and those pieces written. -/
noncomputable def matmulRunB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_gelu_kernel i arg3 harg3 arg4 harg4 arg5 harg5 arg6 harg6) K } := by
  refine ⟨[], ?_, fun xi2 E K => ?run⟩
  case run =>
    simp only [cc0__matmul_gelu_kernel_eq_skeleton]; unfold cc0__matmul_gelu_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.IdealMatmulRunC.lean ====
/-
  The body of the first kernel region at the last block of the contraction: the blocks' product is added to the accumulator the point before left, and the GELU of the accumulator is stored into the output's buffer a quarter of the rows at a time. The accumulator's buffer (and the output's, when stored) ends holding what the body's
  stores write: each piece is a rectangle of the buffer with the value stored there, a function of the blocks the body
  loaded and of the accumulator it found.
-/
import proofs.«124898_j3556232922249_2_alg».proof.Proof.IdealMatmulCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces each buffer ends with, with the proof that on whole staging memrefs the body runs to the continuation
    holding the inputs' as they were and those pieces written. -/
noncomputable def matmulRunC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_gelu_kernel i arg3 harg3 arg4 harg4 arg5 harg5 arg6 harg6) K } := by
  refine ⟨?_, ?_, fun E K => ?run⟩
  case run =>
    simp only [cc0__matmul_gelu_kernel_eq_skeleton]; unfold cc0__matmul_gelu_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.IdealMatmulBody.lean ====
/-
  The first kernel region, point by point. What each case of the body leaves in the accumulator's buffer and in the
  output's staging buffer (its pieces read back; they tile the buffer, so they cover it); what the two hold after each
  point, by recursion on the point — off the first block of the contraction a case starts from the accumulator the point
  before left —; the region's invariant, which names the accumulator's contents from the second point on; the proof data;
  and the obligation at every point, the case chosen by the point's position along the contraction.
-/
import proofs.«124898_j3556232922249_2_alg».proof.Proof.IdealMatmulRunA
import proofs.«124898_j3556232922249_2_alg».proof.Proof.IdealMatmulRunB
import proofs.«124898_j3556232922249_2_alg».proof.Proof.IdealMatmulRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first region, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input's staging buffer holds the point's block, fetched at every point. -/
theorem found0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-! ## What each case leaves -/

/-- At the first block the body stores nothing into the output: a placeholder nothing consults. -/
def outA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) : Vec F S1024x1024 .bf16 :=
  outView.read (Elt F) (outView.writes (Elt F) outView.junk (matmulRunA c i arg3 harg3 arg4 harg4 arg5 harg5 arg6 harg6 hc0 hc1 x0 x1).1)
/-- Its pieces for the accumulator tile the buffer, so they cover it. -/
theorem accCoverA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) (y : S1024x1024.Idx) :
    ∃ pc ∈ (matmulRunA c i arg3 harg3 arg4 harg4 arg5 harg5 arg6 harg6 hc0 hc1 x0 x1).2.1, y ∈ pc.1.set :=
  View.cover_of_tiledL (matmulRunA c i arg3 harg3 arg4 harg4 arg5 harg5 arg6 harg6 hc0 hc1 x0 x1).2.1 S1024x1024.size (by sl_kernel_rfl) y
/-- What it leaves in the accumulator. -/
def accA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) : Vec F S1024x1024 .f32 :=
  accView.read (Elt F) (accView.writes (Elt F) accView.junk (matmulRunA c i arg3 harg3 arg4 harg4 arg5 harg5 arg6 harg6 hc0 hc1 x0 x1).2.1)

/-- Inside the contraction the body stores nothing into the output either. -/
def outB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) : Vec F S1024x1024 .bf16 :=
  outView.read (Elt F) (outView.writes (Elt F) outView.junk (matmulRunB c i arg3 harg3 arg4 harg4 arg5 harg5 arg6 harg6 hc0 hc1 x0 x1 xs0).1)
theorem accCoverB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) (y : S1024x1024.Idx) :
    ∃ pc ∈ (matmulRunB c i arg3 harg3 arg4 harg4 arg5 harg5 arg6 harg6 hc0 hc1 x0 x1 xs0).2.1, y ∈ pc.1.set :=
  View.cover_of_tiledL (matmulRunB c i arg3 harg3 arg4 harg4 arg5 harg5 arg6 harg6 hc0 hc1 x0 x1 xs0).2.1 S1024x1024.size (by sl_kernel_rfl) y
def accB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) : Vec F S1024x1024 .f32 :=
  accView.read (Elt F) (accView.writes (Elt F) accView.junk (matmulRunB c i arg3 harg3 arg4 harg4 arg5 harg5 arg6 harg6 hc0 hc1 x0 x1 xs0).2.1)

/-- At the last block the four quarter-stores tile the output's buffer, so they cover it. -/
theorem outCoverC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) (y : S1024x1024.Idx) :
    ∃ pc ∈ (matmulRunC c i arg3 harg3 arg4 harg4 arg5 harg5 arg6 harg6 hc0 hc1 x0 x1 xs0).1, y ∈ pc.1.set :=
  View.cover_of_tiledL (matmulRunC c i arg3 harg3 arg4 harg4 arg5 harg5 arg6 harg6 hc0 hc1 x0 x1 xs0).1 S256x1024.size (by sl_kernel_rfl) y
def outC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) : Vec F S1024x1024 .bf16 :=
  outView.read (Elt F) (outView.writes (Elt F) outView.junk (matmulRunC c i arg3 harg3 arg4 harg4 arg5 harg5 arg6 harg6 hc0 hc1 x0 x1 xs0).1)
theorem accCoverC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) (y : S1024x1024.Idx) :
    ∃ pc ∈ (matmulRunC c i arg3 harg3 arg4 harg4 arg5 harg5 arg6 harg6 hc0 hc1 x0 x1 xs0).2.1, y ∈ pc.1.set :=
  View.cover_of_tiledL (matmulRunC c i arg3 harg3 arg4 harg4 arg5 harg5 arg6 harg6 hc0 hc1 x0 x1 xs0).2.1 S1024x1024.size (by sl_kernel_rfl) y
def accC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) : Vec F S1024x1024 .f32 :=
  accView.read (Elt F) (accView.writes (Elt F) accView.junk (matmulRunC c i arg3 harg3 arg4 harg4 arg5 harg5 arg6 harg6 hc0 hc1 x0 x1 xs0).2.1)

/-! ## What the two buffers hold after each point -/

/-- After the body at position `n`: the output's staging buffer and the accumulator. The case is the position's residue
    mod 4; off the first block it starts from the accumulator position `n - 1` left. -/
def holdsAt0 (c : Dev nD) : (n : ℕ) → n < cfg0.N → Vec F S1024x1024 .bf16 × Vec F S1024x1024 .f32
  | 0, hn => (outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((atFirst_iff ⟨0, hn⟩).mpr (Nat.zero_mod _)) (fun h => (fun h => by (try dsimp only at h); omega) ((atLast_iff ⟨0, hn⟩).mp h)) (blockAt0 V c 0 ⟨0, hn⟩) (blockAt0 V c 1 ⟨0, hn⟩),
      accA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((atFirst_iff ⟨0, hn⟩).mpr (Nat.zero_mod _)) (fun h => (fun h => by (try dsimp only at h); omega) ((atLast_iff ⟨0, hn⟩).mp h)) (blockAt0 V c 0 ⟨0, hn⟩) (blockAt0 V c 1 ⟨0, hn⟩))
  | n + 1, hn =>
    if h0 : (n + 1) % 4 = 0 then
      if h1 : (n + 1) % 4 = 3 then
        False.elim (by omega)
      else
        (outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((atFirst_iff ⟨n + 1, hn⟩).mpr h0) (fun h => h1 ((atLast_iff ⟨n + 1, hn⟩).mp h)) (blockAt0 V c 0 ⟨n + 1, hn⟩) (blockAt0 V c 1 ⟨n + 1, hn⟩),
          accA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((atFirst_iff ⟨n + 1, hn⟩).mpr h0) (fun h => h1 ((atLast_iff ⟨n + 1, hn⟩).mp h)) (blockAt0 V c 0 ⟨n + 1, hn⟩) (blockAt0 V c 1 ⟨n + 1, hn⟩))
    else
      if h1 : (n + 1) % 4 = 3 then
        (outC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) ((atLast_iff ⟨n + 1, hn⟩).mpr h1) (blockAt0 V c 0 ⟨n + 1, hn⟩) (blockAt0 V c 1 ⟨n + 1, hn⟩) (holdsAt0 c n (Nat.lt_of_succ_lt hn)).2,
          accC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) ((atLast_iff ⟨n + 1, hn⟩).mpr h1) (blockAt0 V c 0 ⟨n + 1, hn⟩) (blockAt0 V c 1 ⟨n + 1, hn⟩) (holdsAt0 c n (Nat.lt_of_succ_lt hn)).2)
      else
        (outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) (fun h => h1 ((atLast_iff ⟨n + 1, hn⟩).mp h)) (blockAt0 V c 0 ⟨n + 1, hn⟩) (blockAt0 V c 1 ⟨n + 1, hn⟩) (holdsAt0 c n (Nat.lt_of_succ_lt hn)).2,
          accB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((atFirst_iff ⟨n + 1, hn⟩).mp h)) (fun h => h1 ((atLast_iff ⟨n + 1, hn⟩).mp h)) (blockAt0 V c 0 ⟨n + 1, hn⟩) (blockAt0 V c 1 ⟨n + 1, hn⟩) (holdsAt0 c n (Nat.lt_of_succ_lt hn)).2)

/-- At a point on the first block of the contraction. -/
theorem holdsAt0_A (c : Dev nD) (t : Fin cfg0.N) (h0 : t.val % 4 = 0) (h1 : ¬t.val % 4 = 3) :
    holdsAt0 V c t.val t.isLt = (outA c (grid0.coords t) (ms0_0 t) (hs0_0 t) (ms0_1 t) (hs0_1 t) (ms0_2 t) (hs0_2 t) accM (Memref.isWhole_whole _) ((atFirst_iff t).mpr h0) (fun h => h1 ((atLast_iff t).mp h)) (blockAt0 V c 0 t) (blockAt0 V c 1 t),
      accA c (grid0.coords t) (ms0_0 t) (hs0_0 t) (ms0_1 t) (hs0_1 t) (ms0_2 t) (hs0_2 t) accM (Memref.isWhole_whole _) ((atFirst_iff t).mpr h0) (fun h => h1 ((atLast_iff t).mp h)) (blockAt0 V c 0 t) (blockAt0 V c 1 t)) := by
  obtain ⟨n, hn⟩ := t
  cases n with
  | zero => exact rfl
  | succ n => exact (dif_pos h0).trans ((dif_neg h1).trans rfl)

/-- At a point strictly inside the contraction. -/
theorem holdsAt0_B (c : Dev nD) (t : Fin cfg0.N) (h0 : ¬t.val % 4 = 0) (h1 : ¬t.val % 4 = 3) :
    holdsAt0 V c t.val t.isLt = (outB c (grid0.coords t) (ms0_0 t) (hs0_0 t) (ms0_1 t) (hs0_1 t) (ms0_2 t) (hs0_2 t) accM (Memref.isWhole_whole _) (fun h => h0 ((atFirst_iff t).mp h)) (fun h => h1 ((atLast_iff t).mp h)) (blockAt0 V c 0 t) (blockAt0 V c 1 t) (holdsAt0 V c (t.val - 1) (Nat.lt_of_le_of_lt (Nat.sub_le _ _) t.isLt)).2,
      accB c (grid0.coords t) (ms0_0 t) (hs0_0 t) (ms0_1 t) (hs0_1 t) (ms0_2 t) (hs0_2 t) accM (Memref.isWhole_whole _) (fun h => h0 ((atFirst_iff t).mp h)) (fun h => h1 ((atLast_iff t).mp h)) (blockAt0 V c 0 t) (blockAt0 V c 1 t) (holdsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point on the last block of the contraction. -/
theorem holdsAt0_C (c : Dev nD) (t : Fin cfg0.N) (h0 : ¬t.val % 4 = 0) (h1 : t.val % 4 = 3) :
    holdsAt0 V c t.val t.isLt = (outC c (grid0.coords t) (ms0_0 t) (hs0_0 t) (ms0_1 t) (hs0_1 t) (ms0_2 t) (hs0_2 t) accM (Memref.isWhole_whole _) (fun h => h0 ((atFirst_iff t).mp h)) ((atLast_iff t).mpr h1) (blockAt0 V c 0 t) (blockAt0 V c 1 t) (holdsAt0 V c (t.val - 1) (Nat.lt_of_le_of_lt (Nat.sub_le _ _) t.isLt)).2,
      accC c (grid0.coords t) (ms0_0 t) (hs0_0 t) (ms0_1 t) (hs0_1 t) (ms0_2 t) (hs0_2 t) accM (Memref.isWhole_whole _) (fun h => h0 ((atFirst_iff t).mp h)) ((atLast_iff t).mpr h1) (blockAt0 V c 0 t) (blockAt0 V c 1 t) (holdsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the untouched scoped rest, the accumulator at anything; afterwards the
    accumulator at what the point before left, the second region's staging buffers and the generator register as found. -/
def accInv (c : Dev nD) : (n : ℕ) → n ≤ cfg0.N → sProp 𝕄
  | 0, _ => Pipeline.ΦA spec0 c
  | n + 1, hn => iprop(iprop(owns (c : Thread nD τ) accM fullShare ((holdsAt0 V c n hn).2) ∗ laterStaging (F := F) c) ∗ (∃ r, prngReg c r))

theorem accInv_zero (c : Dev nD) (n : ℕ) (h : n ≤ cfg0.N) (hz : n = 0) : accInv V c n h = Pipeline.ΦA spec0 c := by
  subst hz; rfl
theorem accInv_succ (c : Dev nD) (n : ℕ) (hn : n < cfg0.N) :
    accInv V c (n + 1) hn = iprop(iprop(owns (c : Thread nD τ) accM fullShare ((holdsAt0 V c n hn).2) ∗ laterStaging (F := F) c) ∗ (∃ r, prngReg c r)) := rfl
theorem accInv_pos (c : Dev nD) (n : ℕ) (h : n ≤ cfg0.N) (hz : n ≠ 0) :
    accInv V c n h = iprop(iprop(owns (c : Thread nD τ) accM fullShare ((holdsAt0 V c (n - 1) (by omega)).2) ∗ laterStaging (F := F) c) ∗ (∃ r, prngReg c r)) := by
  cases n with
  | zero => exact absurd rfl hz
  | succ n => rfl

/-! ## The proof data -/

/-- The first region's proof data on core `c`: the arrays as the region finds them; after the body each input's buffer at
    its block and the output's at `holdsAt0`'s first component; the invariant `accInv`; nothing owed; full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => (holdsAt0 V c t.val t.isLt).1
  Φ t := accInv V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem accInv_castSucc (c : Dev nD) (t : Fin cfg0.N) :
    (dat0 V c).Φ t.castSucc = accInv V c t.val (Nat.le_of_lt t.isLt) := by
  dsimp only [dat0]; simp only [Fin.coe_castSucc]
theorem after0_0 (c : Dev nD) (t : Fin cfg0.N) : (dat0 V c).after 0 t = blockAt0 V c 0 t := by dsimp only [dat0]
theorem after0_1 (c : Dev nD) (t : Fin cfg0.N) : (dat0 V c).after 1 t = blockAt0 V c 1 t := by dsimp only [dat0]
theorem after0_2 (c : Dev nD) (t : Fin cfg0.N) : (dat0 V c).after 2 t = (holdsAt0 V c t.val t.isLt).1 := by dsimp only [dat0]
theorem found0_0 (c : Dev nD) (t : Fin cfg0.N) (d) : (dat0 V c).before 0 t d = blockAt0 V c 0 t :=
  found0_0_of V (dat0 V c) (A_eq0 V c 0) (after0_0 V c) t d
theorem found0_1 (c : Dev nD) (t : Fin cfg0.N) (d) : (dat0 V c).before 1 t d = blockAt0 V c 1 t :=
  found0_1_of V (dat0 V c) (A_eq0 V c 1) (after0_1 V c) t d

/-! ## The obligation at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position's residue mod 4 says which case runs; the
    invariant hands the body the accumulator at what the point before left (at anything before the first point) and takes
    it back at this point's contents; off the last block the output's buffer comes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1]
  rw [show (dat0 V c).owesAt () t.succ = (dat0 V c).owesAt () t.castSucc from rfl]
  rw [show (dat0 V c).Φ t.succ = accInv V c (t.val + 1) t.isLt from rfl, accInv_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · by_cases h1 : t.val % 4 = 3
    · exfalso; omega
    · rw [Dat.leavesExact_idle (dat0 V c) 2 t (idle0_2 t (fun h => h1 ((atLast_iff t).mp h))) (noFlush0_2 t (fun h => h1 ((atLast_iff t).mp h)))]
      rw [holdsAt0_A V c t h0 h1]
      unfold accA; (try dsimp only)
      by_cases hz : t.val = 0
      · rw [accInv_castSucc V c t, accInv_zero V c _ _ hz, restA0_eq]
        iintro ⟨⟨⟨HS0, Hl⟩, Hg⟩, Ho, ⟨%d0, H0⟩, ⟨%d1, H1⟩, ⟨%d2, H2⟩⟩
        iapply ((matmulRunA c (grid0.coords t) _ _ _ _ _ _ _ _ ((atFirst_iff t).mpr h0) (fun h => h1 ((atLast_iff t).mp h)) (blockAt0 V c 0 t) (blockAt0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hl Hg]
        · isplitl [HS0 Hl]
          · isplitl [HS0]
            · unfold owns; iexists _; isplitr
              swap; · iexact HS0
              ipureintro; exact View.read_writes_of_cover _ _ _ _ _ (accCoverA c _ _ _ _ _ _ _ _ _ _ _ _ _)
            iexact Hl
          iexact Hg
        isplitl [Ho]; · iexact Ho
        isplitl [H0]; · iexact H0
        isplitl [H1]; · iexact H1
        iexists _; iexact H2
      · rw [accInv_castSucc V c t, accInv_pos V c _ _ hz]
        iintro ⟨⟨⟨HS0, Hl⟩, Hg⟩, Ho, ⟨%d0, H0⟩, ⟨%d1, H1⟩, ⟨%d2, H2⟩⟩
        iapply ((matmulRunA c (grid0.coords t) _ _ _ _ _ _ _ _ ((atFirst_iff t).mpr h0) (fun h => h1 ((atLast_iff t).mp h)) (blockAt0 V c 0 t) (blockAt0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hl Hg]
        · isplitl [HS0 Hl]
          · isplitl [HS0]
            · unfold owns; iexists _; isplitr
              swap; · iexact HS0
              ipureintro; exact View.read_writes_of_cover _ _ _ _ _ (accCoverA c _ _ _ _ _ _ _ _ _ _ _ _ _)
            iexact Hl
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    · rw [show (dat0 V c).leavesExact 2 t = owns (c : Thread nD τ) (ms0_2 t) fullShare ((dat0 V c).after 2 t) from by
        unfold Dat.leavesExact; rw [live0_2 t ((atLast_iff t).mpr h1)], after0_2]
      rw [holdsAt0_C V c t h0 h1]
      unfold outC accC; (try dsimp only)
      rw [accInv_castSucc V c t, accInv_pos V c _ _ hz]
      iintro ⟨⟨⟨HS0, Hl⟩, Hg⟩, Ho, ⟨%d0, H0⟩, ⟨%d1, H1⟩, ⟨%d2, H2⟩⟩
      iapply ((matmulRunC c (grid0.coords t) _ _ _ _ _ _ _ _ (fun h => h0 ((atFirst_iff t).mp h)) ((atLast_iff t).mpr h1) (blockAt0 V c 0 t) (blockAt0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hl Hg]
      · isplitl [HS0 Hl]
        · isplitl [HS0]
          · unfold owns; iexists _; isplitr
            swap; · iexact HS0
            ipureintro; exact View.read_writes_of_cover _ _ _ _ _ (accCoverC c _ _ _ _ _ _ _ _ _ _ _ _ _ _)
          iexact Hl
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC c _ _ _ _ _ _ _ _ _ _ _ _ _ _)
    · rw [Dat.leavesExact_idle (dat0 V c) 2 t (idle0_2 t (fun h => h1 ((atLast_iff t).mp h))) (noFlush0_2 t (fun h => h1 ((atLast_iff t).mp h)))]
      rw [holdsAt0_B V c t h0 h1]
      unfold accB; (try dsimp only)
      rw [accInv_castSucc V c t, accInv_pos V c _ _ hz]
      iintro ⟨⟨⟨HS0, Hl⟩, Hg⟩, Ho, ⟨%d0, H0⟩, ⟨%d1, H1⟩, ⟨%d2, H2⟩⟩
      iapply ((matmulRunB c (grid0.coords t) _ _ _ _ _ _ _ _ (fun h => h0 ((atFirst_iff t).mp h)) (fun h => h1 ((atLast_iff t).mp h)) (blockAt0 V c 0 t) (blockAt0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hl Hg]
      · isplitl [HS0 Hl]
        · isplitl [HS0]
          · unfold owns; iexists _; isplitr
            swap; · iexact HS0
            ipureintro; exact View.read_writes_of_cover _ _ _ _ _ (accCoverB c _ _ _ _ _ _ _ _ _ _ _ _ _ _)
          iexact Hl
        iexact Hg
      isplitl [Ho]; · iexact Ho
      isplitl [H0]; · iexact H0
      isplitl [H1]; · iexact H1
      iexists _; iexact H2

/-- The obligation at every point of the first region. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem accInv_in (c : Dev nD) : Pipeline.ΦA spec0 c ⊢ (dat0 V c).Φ 0 := by
  rw [show (dat0 V c).Φ 0 = accInv V c 0 (Nat.zero_le _) from rfl, accInv_zero V c 0 _ rfl]
  try exact Idealize.SL.BI.Entails.refl _

/-- After the last point the invariant gives the untouched rest back: the accumulator's named contents are forgotten. -/
theorem accInv_out (c : Dev nD) : (dat0 V c).Φ (Fin.last cfg0.N) ⊢ Pipeline.ΦA spec0 c := by
  rw [show (dat0 V c).Φ (Fin.last cfg0.N) = accInv V c (Fin.last cfg0.N).val (Nat.le_of_lt_succ (Fin.last cfg0.N).isLt) from rfl,
    accInv_pos V c _ _ (by rw [Fin.val_last]; have : cfg0.N = 128 := N_0; omega), restA0_eq]
  iintro ⟨⟨HS0, Hl⟩, Hg⟩
  isplitl [HS0 Hl]
  · isplitl [HS0]
    · iexists _; iexact HS0
    iexact Hl
  iexact Hg

end Cert.KernelIdeal.Hand

end
-- ==== Proof.IdealSoftmaxBody.lean ====
/-
  The second kernel region: each grid point takes one block of 256 rows of the activations and the one bias row, and stores
  into its output block, through one whole-block store, the row softmax of the activations plus the bias. Stated at a
  parameter `V`, the contents of the core's buffers when the region is entered: what each window's block is at a point,
  what the body leaves in the output's staging buffer (the one store read back), the body's triple, and the region's proof
  data with the obligation at every point. The body reads its output buffer before storing into it; the value is unused.
-/
import proofs.«124898_j3556232922249_2_alg».proof.Proof.Gen.KernelIdeal.Launch
import proofs.«124898_j3556232922249_2_alg».proof.Proof.Gen.KernelIdeal.Skeleton
import proofs.«124898_j3556232922249_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second region, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block of rows, fetched at every point. -/
theorem found1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- The bias row's staging buffer holds the row at every point: fetched at the first, and its block never moves. -/
theorem found1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- The whole block of rows, the whole bias row. -/
abbrev rows1 : Rect S256x4096 := Rect.unit (s := S256x4096) ![0, 0] S256x4096.size inb_S256x4096_S256x4096_0_0
abbrev biasRow1 : Rect S1x4096 := Rect.unit (s := S1x4096) ![0, 0] S1x4096.size inb_S1x4096_S1x4096_0_0

/-- What the body leaves in the output's staging buffer: its one store, of the softmax-plus-bias of the two loaded blocks. -/
def softOut (x0 : Vec F S256x4096 .bf16) (x1 : Vec F S1x4096 .f32) : Vec F S256x4096 .f32 :=
  View.canon [⟨rows1, k1_pay1 (View.ld x0 rows1) (View.ld x1 biasRow1)⟩]

/-- The one store covers the block. -/
theorem softCover (p0 : Vec F S256x4096 .f32) (y : S256x4096.Idx) :
    ∃ pc ∈ ([⟨rows1, p0⟩] : List (View.Piece (Elt F) S256x4096 .f32)), y ∈ pc.1.set :=
  View.cover_of_tiled [⟨rows1, p0⟩] S256x4096.size (by rfl) y

set_option maxHeartbeats 1000000 in
/-- The body on whole staging memrefs, the two inputs' at their contents and the output's at anything, runs to the
    continuation holding the inputs' as they were and the output's at `softOut` of them. -/
theorem softmax_body (c : Dev nD) (E : Set ℕ) (i : grid1.Coords) (arg1 : Memref sig .tc .vmem S256x4096 .bf16) (harg1 : arg1.IsWhole)
    (arg2 : Memref sig .tc .vmem S1x4096 .f32) (harg2 : arg2.IsWhole) (arg3 : Memref sig .tc .vmem S256x4096 .f32) (harg3 : arg3.IsWhole)
    (x0 : Vec F S256x4096 .bf16) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (softOut x0 x1)) -∗ K ⟨⟩))
      ⊢ wp frame (wpE (defs₀ (F := F)) Variants.none c none) E (cc1__softmax_bias_kernel i arg1 harg1 arg2 harg2 arg3 harg3) K := by
  simp only [cc1__softmax_bias_kernel_eq_skeleton]; unfold cc1__softmax_bias_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (softCover _)

/-- The second region's proof data on core `c`: the arrays as the region finds them; after the body each input's buffer at
    its block and the output's at `softOut` of the two; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => softOut (blockAt1 V c 0 t) (blockAt1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blockAt1 V c 0 t := by dsimp only [dat1]
theorem after1_1 (c : Dev nD) (t : Fin cfg1.N) : (dat1 V c).after 1 t = blockAt1 V c 1 t := by dsimp only [dat1]
theorem after1_2 (c : Dev nD) (t : Fin cfg1.N) : (dat1 V c).after 2 t = softOut (blockAt1 V c 0 t) (blockAt1 V c 1 t) := by dsimp only [dat1]

theorem found1_0 (c : Dev nD) (t : Fin cfg1.N) (d) : (dat1 V c).before 0 t d = blockAt1 V c 0 t :=
  found1_0_of V (dat1 V c) (A_eq1 V c 0) (after1_0 V c) t d
theorem found1_1 (c : Dev nD) (t : Fin cfg1.N) (d) : (dat1 V c).before 1 t d = blockAt1 V c 1 t :=
  found1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (softmax_body c Set.univ _ _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation at every point of the second region. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program as a run: two stretches of host operations (the two roundings of the matrices on the way in; the bias
  reshaped to a row) and the two kernel regions between and after them. The contents of the core's unshared buffers at each
  boundary are a fold from the launch memory — a host stretch applies its operations, a region leaves its arrays at what
  its write-backs make of them and every other buffer as it was —; each region is entered from the boundary before it and
  left at the one after it; and every weakly fair execution ends with every such buffer at the last boundary's contents.
  Read at the three arguments that is the frame; read at the result it is the second region's output array.
-/
import proofs.«124898_j3556232922249_2_alg».proof.Proof.IdealMatmulBody
import proofs.«124898_j3556232922249_2_alg».proof.Proof.IdealSoftmaxBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two roundings (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the bias is reshaped to a row (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit1_arr (c : Dev nD) (w : Fin cfg1.W) : (dat1 (V3 m) c).arrAt w cfg1.N = V4 m c (Pipeline.arrRef spec1 w) :=
  (W4_arr m c w).symm
theorem exit1_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## No host operation writes an argument, and no region's array is one -/

theorem stretch0_keeps (c : Dev nD) (V : Valuation τ sig (Elt F)) (b : Ref sig .tc) (h0 : b ≠ main_v0) (h1 : b ≠ main_v1) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h0, StableHlo.devRef_ne_of_ne h1⟩))
theorem stretch1_keeps (c : Dev nD) (V : Valuation τ sig (Elt F)) (b : Ref sig .tc) (h3 : b ≠ main_v3) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact StableHlo.devRef_ne_of_ne h3))

/-- A buffer that is none of the five values @main computes reaches the end as launched. -/
theorem W4_of_arg (c : Dev nD) (b : Ref sig .tc) (h0 : b ≠ main_v0) (h1 : b ≠ main_v1) (h2 : b ≠ main_v2) (h3 : b ≠ main_v3) (h4 : b ≠ main_v4) :
    W4 m c (Proc.devRef .tc b) = m ((c : Thread nD τ).loc b) :=
  calc W4 m c (Proc.devRef .tc b)
    _ = W3 m c (Proc.devRef .tc b) := W4_of_ne m c b (fun w => by fin_cases w <;> first | exact fun e => h2 e.symm | exact fun e => h3 e.symm | exact fun e => h4 e.symm)
    _ = W2 m c (Proc.devRef .tc b) := stretch1_keeps c _ b h3
    _ = W1 m c (Proc.devRef .tc b) := W2_of_ne m c b (fun w => by fin_cases w <;> first | exact fun e => h0 e.symm | exact fun e => h1 e.symm | exact fun e => h2 e.symm)
    _ = W0 m c (Proc.devRef .tc b) := stretch0_keeps c _ b h0 h1
    _ = m ((c : Thread nD τ).loc b) := rfl

/-! ## The proof data family and what rides along -/

abbrev noTables : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (V1 m) c
  | ⟨1, _⟩ => fun c => dat1 (V3 m) c
abbrev noVariants : Variants := Variants.none
abbrev noPairs : GSem nD τ sig → Finset Unit := fun _ => ∅
abbrev noLevel : GSem nD τ sig → Unit → ℕ := fun _ _ => 0
/-- Beside the buffers through every segment: the generator register at some state, and the core owing nothing. -/
abbrev rides (c : Dev nD) : sProp 𝕄 := iprop((∃ r, prngReg c r) ∗ ∃ W, owes (c : Thread nD τ) (0 : CellTallies nD τ sig Unit) W)
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides
theorem stretch0_fresh : (hostOps0 : List (HloOp τ sig (Elt F))).Forall fun op => op.fresh = ∅ := by
  simp only [List.Forall]; repeat' constructor
theorem stretch1_fresh : (hostOps1 : List (HloOp τ sig (Elt F))).Forall fun op => op.fresh = ∅ := by
  simp only [List.Forall]; repeat' constructor
theorem mem_unshared (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unshared buffer at `W1`, left at `W2`. -/
def region0 : Pipeline.RegionSeg (pcfgs (F := F)) noTables (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevel 0 fun _ _ => rfl
  pre c := iprop(StableHlo.held (c : Thread nD τ) (Pipeline.ucRefs τ sig) (W1 m c) ∗ rides c)
  post c := iprop(StableHlo.held (c : Thread nD τ) (Pipeline.ucRefs τ sig) (W2 m c) ∗ rides c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (accInv_in (V1 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (accInv_out (V1 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unshared buffer at `W3`, left at `W4`. -/
def region1 : Pipeline.RegionSeg (pcfgs (F := F)) noTables (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs noLevel 1 fun _ _ => rfl
  pre c := iprop(StableHlo.held (c : Thread nD τ) (Pipeline.ucRefs τ sig) (W3 m c) ∗ rides c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segments : List (Pipeline.Seg (pcfgs (F := F)) noTables (pdats m) () defs₀ noVariants noPairs noLevel) :=
  [ .host (stretch hostOps0 hostOps0_sub stretch0_fresh (W0 m)),
    .region (region0 m),
    .host (stretch hostOps1 hostOps1_sub stretch1_fresh (W2 m)),
    .region (region1 m) ]
theorem main_is_segments (c : Dev nD) : main (F := F) c = Pipeline.Seg.run (segments m) := (main_chain c).trans (by chain_rfl)

set_option backward.isDefEq.respectTransparency.types false in
/-- Every weakly fair execution of @main from memory `m` with zero counters terminates, nothing faulting, and every final
    memory holds every unshared buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (pdats m) () cellOf_inj emb₁ defs₀ noVariants noPairs noLevel m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rides c)) (Tₙ := lastState m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unshared main_arg0 (by decide))).trans (W4_of_arg m c main_arg0 (by decide) (by decide) (by decide) (by decide) (by decide)),
     (h c _ (mem_unshared main_arg1 (by decide))).trans (W4_of_arg m c main_arg1 (by decide) (by decide) (by decide) (by decide) (by decide)),
     (h c _ (mem_unshared main_arg2 (by decide))).trans (W4_of_arg m c main_arg2 (by decide) (by decide) (by decide) (by decide) (by decide))⟩) (run_all m ρ)

/-- The result array ends at what the second region's write-backs make of it, and the arguments as launched. -/
theorem run_result : θ_run defs (onTc (τ := τ) (main (F := F))) ⟨m, fun _ => 0, ρ⟩ (fun r => ∀ c : Dev nD,
      r.2.mem ((c.tc : Thread nD τ).loc main_v4) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unshared main_v4 (by decide))).trans (W4_arr m c 2),
     (h c _ (mem_unshared main_arg0 (by decide))).trans (W4_of_arg m c main_arg0 (by decide) (by decide) (by decide) (by decide) (by decide)),
     (h c _ (mem_unshared main_arg1 (by decide))).trans (W4_of_arg m c main_arg1 (by decide) (by decide) (by decide) (by decide) (by decide)),
     (h c _ (mem_unshared main_arg2 (by decide))).trans (W4_of_arg m c main_arg2 (by decide) (by decide) (by decide) (by decide) (by decide))⟩) (run_all m ρ)

end Cert.KernelIdeal.Hand

end
-- ==== Proof.IdealHostReads.lean ====
/-
  What the two kernel regions find in their arrays, in terms of the launch memory, on the extended reals. The first
  region's two operands are the two matrices rounded to a narrower format — at the exact values, the matrices
  themselves. The second region's activations are what the first region's write-backs left, untouched by the reshape in
  between; its bias row is the bias vector with a leading unit axis, so the row's entry n is the vector's entry n.
-/
import proofs.«124898_j3556232922249_2_alg».proof.Proof.IdealRun
import Idealize.ShloMosaic.Lib.ValueIdx
import Idealize.ShloMosaic.Lib.ValueLayout
import Idealize.ShloMosaic.Lib.StableHlo.Run
import Idealize.ShloMosaic.PureOps.Ideal

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The first region's left operand is the first matrix: rounding is the identity on the extended reals. -/
theorem entry0_left (c : Dev nD) :
    (V1 m c main_v0 : S8192x4096.Idx → Ideal .bf16) = (m ((c : Thread nD τ).loc main_arg0) : S8192x4096.Idx → Ideal .f32) := by
  dsimp only [V1, W1, W0, hostOps0]; after_results; rfl

/-- Its right operand is the second matrix. -/
theorem entry0_right (c : Dev nD) :
    (V1 m c main_v1 : S4096x4096.Idx → Ideal .bf16) = (m ((c : Thread nD τ).loc main_arg1) : S4096x4096.Idx → Ideal .f32) := by
  dsimp only [V1, W1, W0, hostOps0]; after_results; rfl

/-- The second region's activations are the first region's result array. -/
theorem entry1_activations (c : Dev nD) : V3 m c main_v2 = (dat0 (V1 m) c).arrAt 2 cfg0.N :=
  (stretch1_keeps c _ main_v2 (by decide)).trans (W2_arr m c 2)

/-- The bias vector reaches the second stretch as launched. -/
theorem bias_kept (c : Dev nD) : W2 m c (Proc.devRef .tc main_arg2) = m ((c : Thread nD τ).loc main_arg2) :=
  (W2_of_ne m c main_arg2 (fun w => by fin_cases w <;> decide)).trans ((stretch0_keeps c _ main_arg2 (by decide) (by decide)).trans rfl)

/-- The second region's bias row at entry n is the bias vector's entry n. -/
theorem entry1_bias (c : Dev nD) (n : Fin 4096) :
    (V3 m c main_v3 : S1x4096.Idx → Ideal .f32) (ix2 (0 : Fin 1) n) = (m ((c : Thread nD τ).loc main_arg2) : S4096.Idx → Ideal .f32) (ix1 n) := by
  have e : (V3 m c main_v3 : S1x4096.Idx → Ideal .f32)
      = shapeCast S1x4096 (W2 m c (Proc.devRef .tc main_arg2) : S4096.Idx → Ideal .f32) shapeCasts_S4096_S1x4096 := by
    dsimp only [V3, W3, hostOps1]; after_results; rfl
  rw [e, shapeCast_a_1a_apply, bias_kept]

end Cert.KernelIdeal.Hand

end
-- ==== Proof.Spec.lean ====
/-
  The mathematics both programs compute, as ONE function of the three argument arrays, index by index, on the
  extended reals: a dense layer without bias (row r of x against row n of w), the tanh-approximated GELU with the
  programs' four single-precision literals kept as the words they are, a softmax along each row of 4096 entries (the row's
  maximum taken as a fold of max from the word for minus infinity, the exponentials of the differences, their quotient by the
  row's sum), and a bias row added after the softmax.
-/
import Idealize.ShloMosaic.PureOps.Ideal
import Idealize.ShloMosaic.Lib.ValueIdx

noncomputable section

open scoped BigOperators

namespace Cert.DenseSoftmax

open Idealize.ShloMosaic Idealize.ShloMosaic.ValueIdx

/-- The tanh-approximated GELU, in the association both programs use: (½·v) · (1 + tanh(c₁ · (v + ((c₂·v)·v)·v))). -/
def gelu (v : EReal) : EReal :=
  (Ideal.ofBits .f32 0x3F000000#32 * v)
    * (Ideal.ofBits .f32 0x3F800000#32
        + Ideal.tanh (Ideal.ofBits .f32 0x3F4C422A#32 * (v + ((Ideal.ofBits .f32 0x3D372713#32 * v) * v) * v)))

/-- Row `r` of `x` against row `n` of `w`: the sum over the 4096 shared coordinates of the products. -/
def dense (x : (⟨2, ![8192, 4096]⟩ : Shape).Idx → EReal) (w : (⟨2, ![4096, 4096]⟩ : Shape).Idx → EReal)
    (r : Fin 8192) (n : Fin 4096) : EReal :=
  ∑ k : Fin 4096, x (ix2 r k) * w (ix2 n k)

/-- The activations the softmax is taken over: GELU of the dense layer. -/
def logit (x : (⟨2, ![8192, 4096]⟩ : Shape).Idx → EReal) (w : (⟨2, ![4096, 4096]⟩ : Shape).Idx → EReal)
    (r : Fin 8192) (n : Fin 4096) : EReal :=
  gelu (dense x w r n)

/-- A row's maximum: the fold of max over its 4096 entries from the word for minus infinity. -/
def rowMax (row : Fin 4096 → EReal) : EReal :=
  (Finset.univ : Finset (Fin 4096)).fold max (Ideal.ofBits .f32 0xFF800000#32) row

/-- The softmax of a row at one entry: exp of the entry less the row's maximum, over the sum of those exponentials. -/
def softmaxAt (row : Fin 4096 → EReal) (n : Fin 4096) : EReal :=
  Ideal.div (Ideal.exp (row n - rowMax row)) (∑ k : Fin 4096, Ideal.exp (row k - rowMax row))

/-- The result at row `r`, column `n`. -/
def resultAt (x : (⟨2, ![8192, 4096]⟩ : Shape).Idx → EReal) (w : (⟨2, ![4096, 4096]⟩ : Shape).Idx → EReal)
    (b : (⟨1, ![4096]⟩ : Shape).Idx → EReal) (r : Fin 8192) (n : Fin 4096) : EReal :=
  softmaxAt (logit x w r) n + b (ix1 n)

/-- The whole result array. -/
def result (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => resultAt x w b (i 0) (i 1)

theorem result_ix2 (x : (⟨2, ![8192, 4096]⟩ : Shape).Idx → EReal) (w : (⟨2, ![4096, 4096]⟩ : Shape).Idx → EReal)
    (b : (⟨1, ![4096]⟩ : Shape).Idx → EReal) (r : Fin 8192) (n : Fin 4096) :
    result x w b (ix2 r n) = resultAt x w b r n := rfl

end Cert.DenseSoftmax

end
-- ==== Proof.IdealMatmulPieces.lean ====
/-
  What each case of the first region's body leaves, read back as values. The accumulator's buffer ends holding one
  accumulation step: of the zero block at the first block of the contraction, of what the point before left otherwise.
  At the last block the output's buffer ends holding, entry by entry, the GELU of that step's accumulator: its four
  quarter stores each carry the GELU of the quarter of the accumulator they load, so together they are one function
  of the buffer's index.
-/
import proofs.«124898_j3556232922249_2_alg».proof.Proof.IdealMatmulBody
import proofs.«124898_j3556232922249_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-- The zero offset of a whole-buffer access. -/
theorem hz : (![0, 0] : Fin 2 → Nat) = fun _ => 0 := funext fun a => by fin_cases a <;> rfl

section AnyFormat
variable {F : FTy → Type} [FloatOps F]

/-- At the first block of the contraction the body stores the zero block, reads it back, and leaves one accumulation
    step of it. -/
theorem accA_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : atFirst i) (hc1 : ¬atLast i) (x0 : Vec F S1024x1024 .bf16) (x1 : Vec F S1024x1024 .bf16) :
    accA c i arg3 harg3 arg4 harg4 arg5 harg5 arg6 harg6 hc0 hc1 x0 x1 = k0_pay2 (k0_pay1 (F := F)) x0 x1 := by
  unfold accA
  rw [View.read_writes_eq_canon _ _ _ (accCoverA c i arg3 harg3 arg4 harg4 arg5 harg5 arg6 harg6 hc0 hc1 x0 x1)]
  unfold matmulRunA
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- Strictly inside the contraction the body leaves one accumulation step of the accumulator it found. -/
theorem accB_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : ¬atLast i) (x0 : Vec F S1024x1024 .bf16) (x1 : Vec F S1024x1024 .bf16) (xs0 : Vec F S1024x1024 .f32) :
    accB c i arg3 harg3 arg4 harg4 arg5 harg5 arg6 harg6 hc0 hc1 x0 x1 xs0 = k0_pay2 xs0 x0 x1 := by
  unfold accB
  rw [View.read_writes_eq_canon _ _ _ (accCoverB c i arg3 harg3 arg4 harg4 arg5 harg5 arg6 harg6 hc0 hc1 x0 x1 xs0)]
  unfold matmulRunB
  dsimp only
  rw [View.canon_unit_zero hz]
  simp only [View.readAt_eq_ld, harg3.read_unread, harg4.read_unread, harg6.read_unread, View.ld_unit_zero (S := S1024x1024) hz]

/-- At the last block of the contraction the accumulator likewise ends at one step of what it held. -/
theorem accC_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec F S1024x1024 .bf16) (x1 : Vec F S1024x1024 .bf16) (xs0 : Vec F S1024x1024 .f32) :
    accC c i arg3 harg3 arg4 harg4 arg5 harg5 arg6 harg6 hc0 hc1 x0 x1 xs0 = k0_pay2 xs0 x0 x1 := by
  unfold accC
  rw [View.read_writes_eq_canon _ _ _ (accCoverC c i arg3 harg3 arg4 harg4 arg5 harg5 arg6 harg6 hc0 hc1 x0 x1 xs0)]
  unfold matmulRunC
  dsimp only
  sl_unfold_words
  rw [View.canon_unit_zero hz]
  simp only [View.readAt_eq_ld, harg3.read_unread, harg4.read_unread, harg6.read_unread, View.ld_unit_zero (S := S1024x1024) hz]

end AnyFormat

/-- A quarter of the accumulator, loaded after the step's whole-buffer store, reads the step's value at the quarter's
    indices. -/
theorem quarter_load (arg3 : Memref sig .tc .vmem S1024x1024 .bf16) (harg3 : arg3.IsWhole) (arg4 : Memref sig .tc .vmem S1024x1024 .bf16) (harg4 : arg4.IsWhole) (arg6 : Memref sig .tc .vmem S1024x1024 .f32) (harg6 : arg6.IsWhole)
    (x0 x1 : Vec Ideal S1024x1024 .bf16) (xs0 : Vec Ideal S1024x1024 .f32) (B : LoadRect S1024x1024) (x : B.shape.Idx) :
    arg6.view.readCov
        [(⟨Rect.unit ![0, 0] ![1024, 1024] Facts₀.inb_S1024x1024_S1024x1024_0_0,
            k0_pay2
              (View.readAt (Elt Ideal) arg6.view (Rect.unit ![0, 0] ![1024, 1024] Facts₀.inb_S1024x1024_S1024x1024_0_0).toLoadRect (harg6.unread xs0))
              (View.readAt (Elt Ideal) arg3.view (Rect.unit ![0, 0] ![1024, 1024] Facts₀.inb_S1024x1024_S1024x1024_0_0).toLoadRect (harg3.unread x0))
              (View.readAt (Elt Ideal) arg4.view (Rect.unit ![0, 0] ![1024, 1024] Facts₀.inb_S1024x1024_S1024x1024_0_0).toLoadRect (harg4.unread x1))⟩ :
          View.Piece (Elt Ideal) S1024x1024 .f32)] B x
      = k0_pay2 xs0 x0 x1 (B.idx x) := by
  rw [View.readCov_eq_canon', View.canon_unit_zero (S := S1024x1024) hz]
  simp only [View.readAt_eq_ld, harg3.read_unread, harg4.read_unread, harg6.read_unread, View.ld_unit_zero (S := S1024x1024) hz]

/-- At the last block of the contraction the output's buffer holds, at every index, the GELU of the step's accumulator. -/
theorem outC_apply (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec Ideal S1024x1024 .bf16) (x1 : Vec Ideal S1024x1024 .bf16) (xs0 : Vec Ideal S1024x1024 .f32) (y : S1024x1024.Idx) :
    outC (F := Ideal) c i arg3 harg3 arg4 harg4 arg5 harg5 arg6 harg6 hc0 hc1 x0 x1 xs0 y = Cert.DenseSoftmax.gelu (k0_pay2 xs0 x0 x1 y) := by
  unfold outC
  rw [View.read_writes_eq_canon _ _ _ (outCoverC c i arg3 harg3 arg4 harg4 arg5 harg5 arg6 harg6 hc0 hc1 x0 x1 xs0)]
  refine View.canon_apply_of_pieces (fun j => Cert.DenseSoftmax.gelu (k0_pay2 xs0 x0 x1 j)) _ ?_ y (outCoverC c i arg3 harg3 arg4 harg4 arg5 harg5 arg6 harg6 hc0 hc1 x0 x1 xs0 y)
  unfold matmulRunC
  dsimp only
  sl_unfold_words
  intro p hp x
  simp only [List.mem_cons, List.not_mem_nil, or_false] at hp
  rcases hp with rfl | rfl | rfl | rfl
  · exact congrArg Cert.DenseSoftmax.gelu (quarter_load arg3 harg3 arg4 harg4 arg6 harg6 x0 x1 xs0 _ x)
  · exact congrArg Cert.DenseSoftmax.gelu (quarter_load arg3 harg3 arg4 harg4 arg6 harg6 x0 x1 xs0 _ x)
  · exact congrArg Cert.DenseSoftmax.gelu (quarter_load arg3 harg3 arg4 harg4 arg6 harg6 x0 x1 xs0 _ x)
  · exact congrArg Cert.DenseSoftmax.gelu (quarter_load arg3 harg3 arg4 harg4 arg6 harg6 x0 x1 xs0 _ x)

/-- The same at coordinates (p, q). -/
theorem outC_ix2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬atFirst i) (hc1 : atLast i) (x0 : Vec Ideal S1024x1024 .bf16) (x1 : Vec Ideal S1024x1024 .bf16) (xs0 : Vec Ideal S1024x1024 .f32) (p q : Fin 1024) :
    outC (F := Ideal) c i arg3 harg3 arg4 harg4 arg5 harg5 arg6 harg6 hc0 hc1 x0 x1 xs0 (ix2 p q) = Cert.DenseSoftmax.gelu (k0_pay2 xs0 x0 x1 (ix2 p q)) :=
  outC_apply c i arg3 harg3 arg4 harg4 arg5 harg5 arg6 harg6 hc0 hc1 x0 x1 xs0 (ix2 p q)

end Cert.KernelIdeal.Hand

end
-- ==== Proof.LibRowsProduct.lean ====
/-
  A product of two matrices taken row against row: `[a, k] × [b, k] → [a, b]`, the LAST axis of each operand
  contracted (the left operand times the transpose of the right one, without the transpose being formed).

  At output `(i, j)` the contraction's sum of products is the sum over `e : Fin k` of `lhs (i, e) * rhs (j, e)`:
  row `i` of the left operand against row `j` of the right one. Stated on the extended reals, for the vector
  unit's product into a zero accumulator and for the host's product.
-/
import Idealize.ShloMosaic.Lib.ValueIdx
import Idealize.ShloMosaic.PureOps.Ideal.Laws

noncomputable section

namespace Cert.LibRowsProduct

open Idealize.ShloMosaic Idealize.ShloMosaic.ValueIdx

variable {a b k : ℕ}

/-- The dimension numbers of a row-against-row product `[a, k] × [b, k] → [a, b]`: no batch axis, the last axis of
    each operand contracted, the first axes kept in order. -/
abbrev rowsDims (a k b : ℕ)
    (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ where
  lhsContracting := [1]
  rhsContracting := [1]
  lhsNonContracting := [0]
  rhsNonContracting := [0]
  lhsBatch := []
  rhsBatch := []
  wf := wf

/-- The left operand's index at output `(i, j)` and contraction coordinate `e` is `(i, e)`. -/
theorem rows_lhsIdx (wf : DotDims.WF ⟨2, ![a, k]⟩ ⟨2, ![b, k]⟩ ⟨2, ![a, b]⟩ [1] [1] [0] [0] [] [])
    (i : Fin a) (j : Fin b) (e : Fin k) :
    (rowsDims a k b wf).lhsIdx (ix2 i j) ((contrEquiv1 (rowsDims a k b wf) k rfl rfl).symm e) = ix2 i e := by
  funext ax
  apply Fin.ext
  match ax with
  | ⟨0, _⟩ => rfl
  | ⟨1, _⟩ =>
    exact ((rowsDims a k b wf).lhsIdx_val_of_single rfl (ix2 i j) _).trans
      (contrEquiv1_symm_val (rowsDims a k b wf) k rfl rfl e)

/-- The right operand's index at output `(i, j)` and contraction coordinate `e` is `(j, e)`. -/
theorem rows_rhsIdx (wf : DotDims.WF ⟨2, ![a, k]⟩ ⟨2, ![b, k]⟩ ⟨2, ![a, b]⟩ [1] [1] [0] [0] [] [])
    (i : Fin a) (j : Fin b) (e : Fin k) :
    (rowsDims a k b wf).rhsIdx (ix2 i j) ((contrEquiv1 (rowsDims a k b wf) k rfl rfl).symm e) = ix2 j e := by
  funext ax
  apply Fin.ext
  match ax with
  | ⟨0, _⟩ => rfl
  | ⟨1, _⟩ =>
    exact ((rowsDims a k b wf).rhsIdx_val_of_single rfl (ix2 i j) _).trans
      (contrEquiv1_symm_val (rowsDims a k b wf) k rfl rfl e)

/-- The contraction's sum of products, over the contracted coordinate. -/
theorem rows_sum (wf : DotDims.WF ⟨2, ![a, k]⟩ ⟨2, ![b, k]⟩ ⟨2, ![a, b]⟩ [1] [1] [0] [0] [] [])
    (lhs : (⟨2, ![a, k]⟩ : Shape).Idx → EReal) (rhs : (⟨2, ![b, k]⟩ : Shape).Idx → EReal) (i : Fin a) (j : Fin b) :
    ∑ kk : (rowsDims a k b wf).contr.Idx,
        lhs ((rowsDims a k b wf).lhsIdx (ix2 i j) kk) * rhs ((rowsDims a k b wf).rhsIdx (ix2 i j) kk)
      = ∑ e : Fin k, lhs (ix2 i e) * rhs (ix2 j e) := by
  rw [← Equiv.sum_comp (contrEquiv1 (rowsDims a k b wf) k rfl rfl).symm]
  refine Finset.sum_congr rfl fun e _ => ?_
  rw [rows_lhsIdx wf i j e, rows_rhsIdx wf i j e]

/-- The vector unit's row-against-row product into a zero accumulator, at `(i, j)`: the sum over `e` of
    `lhs (i, e) * rhs (j, e)`. -/
theorem matmul_rows_apply {φ₁ φ₂ : FTy} (wf : DotDims.WF ⟨2, ![a, k]⟩ ⟨2, ![b, k]⟩ ⟨2, ![a, b]⟩ [1] [1] [0] [0] [] [])
    (prec : Option ContractPrecision) (lhs : FVec Ideal ⟨2, ![a, k]⟩ φ₁) (rhs : FVec Ideal ⟨2, ![b, k]⟩ φ₂)
    (i : Fin a) (j : Fin b) :
    FloatOps.matmul (rowsDims a k b wf) prec lhs rhs (constant ⟨2, ![a, b]⟩ .f32 0x00000000#32) (ix2 i j)
      = ∑ e : Fin k, lhs (ix2 i e) * rhs (ix2 j e) :=
  (Ideal.matmul_constant_zero_apply (rowsDims a k b wf) prec lhs rhs (ix2 i j)).trans (rows_sum wf lhs rhs i j)

/-- The host's row-against-row product, at `(i, j)`: the same sum. -/
theorem dotGeneral_rows_apply {φ₁ φ₂ : FTy} (wf : DotDims.WF ⟨2, ![a, k]⟩ ⟨2, ![b, k]⟩ ⟨2, ![a, b]⟩ [1] [1] [0] [0] [] [])
    (prec : Option ContractPrecision) (sched : HostSchedule) (lhs : FVec Ideal ⟨2, ![a, k]⟩ φ₁)
    (rhs : FVec Ideal ⟨2, ![b, k]⟩ φ₂) (i : Fin a) (j : Fin b) :
    FloatOps.dotGeneral (rowsDims a k b wf) prec sched lhs rhs (ix2 i j)
      = ∑ e : Fin k, lhs (ix2 i e) * rhs (ix2 j e) :=
  (Ideal.dotGeneral_apply (rowsDims a k b wf) prec sched lhs rhs (ix2 i j)).trans (rows_sum wf lhs rhs i j)

end Cert.LibRowsProduct

end
-- ==== Proof.PayMatmul.lean ====
/-
  The first kernel's accumulator payloads read at an index, on the extended reals: the payload that clears the
  accumulator is zero everywhere, and the payload of one step adds to the accumulator's entry at (p, q) the sum over the
  1024 shared coordinates of row p of the left block against row q of the right block.
-/
import proofs.«124898_j3556232922249_2_alg».proof.Proof.Gen.KernelIdeal.Skeleton
import proofs.«124898_j3556232922249_2_alg».proof.Proof.LibRowsProduct
import Idealize.ShloMosaic.Lib.ValueIdx
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-- The kernel's contraction record is the row-against-row record at extents 1024, 1024, 1024. -/
theorem dot_eq_rows :
    dot_S1024x1024_S1024x1024_S1024x1024_1_1_0_0_n_n
      = Cert.LibRowsProduct.rowsDims 1024 1024 1024 Facts₀.dot_S1024x1024_S1024x1024_S1024x1024_1_1_0_0_n_n_wf := rfl

/-- The payload that clears the accumulator is zero at every index. -/
theorem pay_zero (j : S1024x1024.Idx) : k0_pay1 (F := Ideal) j = 0 := by
  unfold k0_pay1
  refine (congrFun (shapeCast_self _ _) j).trans ?_
  exact Ideal.ofBits_zero_f32

/-- One accumulation step at (p, q): the accumulator's entry plus the sum over the shared coordinate of the products
    of row p of the left block and row q of the right block. -/
theorem pay_acc (v3 : Vec Ideal S1024x1024 .f32) (v4 v6 : Vec Ideal S1024x1024 .bf16) (p q : Fin 1024) :
    k0_pay2 v3 v4 v6 (ix2 p q) = v3 (ix2 p q) + ∑ k : Fin 1024, v4 (ix2 p k) * v6 (ix2 q k) := by
  unfold k0_pay2
  refine (congrFun (shapeCast_self _ _) (ix2 p q)).trans ?_
  refine (addf_apply _ _ (ix2 p q)).trans ?_
  refine congrArg (fun z => v3 (ix2 p q) + z) ?_
  rw [shapeCast_self v4, shapeCast_self v6]
  exact Cert.LibRowsProduct.matmul_rows_apply
    Facts₀.dot_S1024x1024_S1024x1024_S1024x1024_1_1_0_0_n_n_wf none v4 v6 p q

end Cert.KernelIdeal.PayValue

end
-- ==== Proof.IdealMatmulChain.lean ====
/-
  The accumulator of the first region after a point, entry by entry, on the extended reals. At a point on the first
  block of the contraction it is zero plus the sum, over the 1024 shared coordinates of the point's two blocks, of the
  products of row p of the left block and row q of the right block; at any other point it is what the point before left
  plus that sum. So after the last of the four blocks of a contraction it is the four sums added in order onto zero —
  whatever the earlier contractions left, since the first block starts from zero.
-/
import proofs.«124898_j3556232922249_2_alg».proof.Proof.IdealMatmulPieces
import proofs.«124898_j3556232922249_2_alg».proof.Proof.PayMatmul

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two blocks a point reads, as matrices of 1024 × 1024 extended reals. -/
abbrev leftBlk (c : Dev nD) (s : Fin cfg0.N) : Vec Ideal S1024x1024 .bf16 := blockAt0 V c 0 s
abbrev rightBlk (c : Dev nD) (s : Fin cfg0.N) : Vec Ideal S1024x1024 .bf16 := blockAt0 V c 1 s

/-- What point `s` adds to the accumulator's entry (p, q): row p of its left block against row q of its right block. -/
def stepTerm (c : Dev nD) (s : Fin cfg0.N) (p q : Fin 1024) : EReal :=
  ∑ kk : Fin 1024, leftBlk V c s (ix2 p kk) * rightBlk V c s (ix2 q kk)

/-- On the first block of a contraction the accumulator restarts from zero. -/
theorem acc_first (c : Dev nD) (s : Fin cfg0.N) (h0 : s.val % 4 = 0) (p q : Fin 1024) :
    (holdsAt0 V c s.val s.isLt).2 (ix2 p q) = 0 + stepTerm V c s p q := by
  have h1 : ¬s.val % 4 = 3 := by omega
  rw [holdsAt0_A V c s h0 h1]
  dsimp only
  rw [accA_eq]
  refine (PayValue.pay_acc _ (leftBlk V c s) (rightBlk V c s) p q).trans ?_
  rw [PayValue.pay_zero]
  rfl

/-- Off the first block it continues from what the point before left. -/
theorem acc_step (c : Dev nD) (s : Fin cfg0.N) (h0 : ¬s.val % 4 = 0) (p q : Fin 1024) :
    (holdsAt0 V c s.val s.isLt).2 (ix2 p q)
      = (holdsAt0 V c (s.val - 1) (Nat.lt_of_le_of_lt (Nat.sub_le _ _) s.isLt)).2 (ix2 p q) + stepTerm V c s p q := by
  by_cases h1 : s.val % 4 = 3
  · rw [holdsAt0_C V c s h0 h1]
    dsimp only
    rw [accC_eq]
    exact PayValue.pay_acc _ (leftBlk V c s) (rightBlk V c s) p q
  · rw [holdsAt0_B V c s h0 h1]
    dsimp only
    rw [accB_eq]
    exact PayValue.pay_acc _ (leftBlk V c s) (rightBlk V c s) p q

/-- After the last of the four blocks of a contraction that starts at position `n`: the four points' sums added in order
    onto zero. -/
theorem acc_chain (c : Dev nD) (n : ℕ) (hn : n + 3 < cfg0.N) (hmod : n % 4 = 0) (p q : Fin 1024) :
    (holdsAt0 V c (n + 3) hn).2 (ix2 p q)
      = (((0 + stepTerm V c ⟨n, by omega⟩ p q) + stepTerm V c ⟨n + 1, by omega⟩ p q)
          + stepTerm V c ⟨n + 2, by omega⟩ p q) + stepTerm V c ⟨n + 3, hn⟩ p q := by
  have e3 := acc_step V c ⟨n + 3, hn⟩ (by show ¬(n + 3) % 4 = 0; omega) p q
  have e2 := acc_step V c ⟨n + 2, by omega⟩ (by show ¬(n + 2) % 4 = 0; omega) p q
  have e1 := acc_step V c ⟨n + 1, by omega⟩ (by show ¬(n + 1) % 4 = 0; omega) p q
  have e0 := acc_first V c ⟨n, by omega⟩ hmod p q
  exact e3.trans (congrArg (· + stepTerm V c ⟨n + 3, hn⟩ p q)
    (e2.trans (congrArg (· + stepTerm V c ⟨n + 2, by omega⟩ p q)
      (e1.trans (congrArg (· + stepTerm V c ⟨n + 1, by omega⟩ p q) e0)))))

end Cert.KernelIdeal.Hand

end
-- ==== Proof.IdealMatmulBlocks.lean ====
/-
  Where the first kernel region's blocks sit. Its grid has 8 × 4 × 4 points, counted row-major: point t is at
  (i, j, k) = (t / 16, (t / 4) mod 4, t mod 4). All blocks are 1024 × 1024. The left factor's block at t is block (i, k) of
  its array, the right factor's is block (j, k) of its array, and the output's is block (i, j) of the output array,
  written back at the last step of the contraction (k = 3). So entry (p, kk) of the left block is entry
  (1024·i + p, 1024·k + kk) of the array, likewise on the right with j, and entry (p, q) of the output block is entry
  (1024·i + p, 1024·j + q); every entry (r, n) of the output array lies in the block written back at the point
  16·(r / 1024) + 4·(n / 1024) + 3.
-/
import proofs.«124898_j3556232922249_2_alg».proof.Proof.IdealMatmulBody
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The three windows' block indices at point t. -/
theorem index_facts0 : ∀ t : Fin cfg0.N, win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = t.val / 16 ∧ win0_2.index t (1 : Fin 2) = (t.val / 4) % 4 :=
  (by decide +kernel : ∀ t : Fin grid0.N, _)

/-- Row p of the left factor's (and of the output's) block at point t is row 1024·(t / 16) + p of the array. -/
def leftRow (t : Fin cfg0.N) (p : Fin 1024) : Fin 8192 :=
  ⟨1024 * (t.val / 16) + p.val, by have hN : cfg0.N = 128 := N_0; have := t.isLt; have := p.isLt; omega⟩

/-- Row q of the right factor's block at point t is row 1024·((t / 4) mod 4) + q of the array. -/
def rightRow (t : Fin cfg0.N) (q : Fin 1024) : Fin 4096 :=
  ⟨1024 * ((t.val / 4) % 4) + q.val, by have := q.isLt; omega⟩

/-- Column kk of either factor's block at point t is coordinate 1024·(t mod 4) + kk of the contraction. -/
def depthAt (t : Fin cfg0.N) (kk : Fin 1024) : Fin 4096 :=
  ⟨1024 * (t.val % 4) + kk.val, by have := kk.isLt; omega⟩

/-- Column q of the output's block at point t is column 1024·((t / 4) mod 4) + q of the output array. -/
def outCol (t : Fin cfg0.N) (q : Fin 1024) : Fin 4096 :=
  ⟨1024 * ((t.val / 4) % 4) + q.val, by have := q.isLt; omega⟩

variable {F : FTy → Type} [FloatOps F]
variable (V : (c : Dev nD) → (b : Ref sig .tc) → Buf (Elt F) ((c : Thread nD τ).loc b))

/-- The left factor's block at point t, entry (p, kk). -/
theorem block0_left_apply (c : Dev nD) (t : Fin cfg0.N) (p kk : Fin 1024) :
    (blockAt0 V c 0 t : Vec F S1024x1024 .bf16) (ix2 p kk) = V c main_v0 (ix2 (leftRow t p) (depthAt t kk)) := by
  obtain ⟨e0, e1, -⟩ := index_facts0 t
  unfold blockAt0
  rw [View.read_apply]
  show V c main_v0 (((cfg0.win 0).blk t).view.emb (ix2 p kk)) = V c main_v0 (ix2 (leftRow t p) (depthAt t kk))
  refine congrArg (V c main_v0) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 1024 + 1 * kk.val = 1024 * (t.val % 4) + kk.val; rw [e1]; omega

/-- The right factor's block at point t, entry (q, kk). -/
theorem block0_right_apply (c : Dev nD) (t : Fin cfg0.N) (q kk : Fin 1024) :
    (blockAt0 V c 1 t : Vec F S1024x1024 .bf16) (ix2 q kk) = V c main_v1 (ix2 (rightRow t q) (depthAt t kk)) := by
  obtain ⟨-, -, e2, e3, -⟩ := index_facts0 t
  unfold blockAt0
  rw [View.read_apply]
  show V c main_v1 (((cfg0.win 1).blk t).view.emb (ix2 q kk)) = V c main_v1 (ix2 (rightRow t q) (depthAt t kk))
  refine congrArg (V c main_v1) (funext fun a => Fin.ext ?_)
  match a with
  | ⟨0, _⟩ => show win0_1.index t (0 : Fin 2) * 1024 + 1 * q.val = 1024 * ((t.val / 4) % 4) + q.val; rw [e2]; omega
  | ⟨1, _⟩ => show win0_1.index t (1 : Fin 2) * 1024 + 1 * kk.val = 1024 * (t.val % 4) + kk.val; rw [e3]; omega

/-- The output block's entry (p, q) at point t sits at (1024·(t / 16) + p, 1024·((t / 4) mod 4) + q) of the output array. -/
theorem out_block_emb (t : Fin cfg0.N) (p q : Fin 1024) :
    ((cfg0.win 2).blk t).view.emb (ix2 p q) = ix2 (leftRow t p) (outCol t q) := by
  obtain ⟨-, -, -, -, e4, e5⟩ := index_facts0 t
  refine funext fun a => Fin.ext ?_
  match a with
  | ⟨0, _⟩ => show win0_2.index t (0 : Fin 2) * 1024 + 1 * p.val = 1024 * (t.val / 16) + p.val; rw [e4]; omega
  | ⟨1, _⟩ => show win0_2.index t (1 : Fin 2) * 1024 + 1 * q.val = 1024 * ((t.val / 4) % 4) + q.val; rw [e5]; omega

/-- Any contents of the output array, read through the output's block at point t, at (p, q). -/
theorem out_block_read (G : S8192x4096.Idx → Elt F .bf16) (t : Fin cfg0.N) (p q : Fin 1024) :
    (((cfg0.win 2).blk t).view.read (Elt F) G : Vec F S1024x1024 .bf16) (ix2 p q) = G (ix2 (leftRow t p) (outCol t q)) := by
  rw [View.read_apply]
  show G (((cfg0.win 2).blk t).view.emb (ix2 p q)) = G (ix2 (leftRow t p) (outCol t q))
  rw [out_block_emb]

/-- The left factor's block at point t, entry (p, k), the array's coordinates given by their values. -/
theorem block0_0_apply (c : Dev nD) (t : Fin cfg0.N) (p k : Fin 1024) (r : Fin 8192) (k' : Fin 4096)
    (hr : r.val = (t.val / 16) * 1024 + p.val) (hk : k'.val = (t.val % 4) * 1024 + k.val) :
    (blockAt0 V c 0 t : Vec F S1024x1024 .bf16) (ix2 p k) = V c main_v0 (ix2 r k') := by
  have e1 : leftRow t p = r := Fin.ext (by show 1024 * (t.val / 16) + p.val = r.val; omega)
  have e2 : depthAt t k = k' := Fin.ext (by show 1024 * (t.val % 4) + k.val = k'.val; omega)
  rw [block0_left_apply, e1, e2]

/-- The right factor's block at point t, entry (q, k), the array's coordinates given by their values. -/
theorem block0_1_apply (c : Dev nD) (t : Fin cfg0.N) (q k : Fin 1024) (n k' : Fin 4096)
    (hn : n.val = ((t.val / 4) % 4) * 1024 + q.val) (hk : k'.val = (t.val % 4) * 1024 + k.val) :
    (blockAt0 V c 1 t : Vec F S1024x1024 .bf16) (ix2 q k) = V c main_v1 (ix2 n k') := by
  have e1 : rightRow t q = n := Fin.ext (by show 1024 * ((t.val / 4) % 4) + q.val = n.val; omega)
  have e2 : depthAt t k = k' := Fin.ext (by show 1024 * (t.val % 4) + k.val = k'.val; omega)
  rw [block0_right_apply, e1, e2]

/-- Where an entry of the output's block at point t sits in the output array, coordinate by coordinate. -/
theorem out_emb0_2 (t : Fin cfg0.N) (j : S1024x1024.Idx) :
    (((cfg0.win 2).blk t).view.emb j 0).val = (t.val / 16) * 1024 + (j 0).val
      ∧ (((cfg0.win 2).blk t).view.emb j 1).val = ((t.val / 4) % 4) * 1024 + (j 1).val := by
  obtain ⟨-, -, -, -, e4, e5⟩ := index_facts0 t
  refine ⟨?_, ?_⟩
  · show win0_2.index t (0 : Fin 2) * 1024 + 1 * (j 0).val = (t.val / 16) * 1024 + (j 0).val; rw [e4]; omega
  · show win0_2.index t (1 : Fin 2) * 1024 + 1 * (j 1).val = ((t.val / 4) % 4) * 1024 + (j 1).val; rw [e5]; omega

/-- An index of the output array is in point t's block iff each coordinate is in the block's range on its axis. -/
theorem mem_blk0_2 (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the output array is in a block that is written back: the one of the last contraction step at its
    row block and column block. -/
theorem cover0_2 (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  have hlt : 16 * ((i 0).val / 1024) + 4 * ((i 1).val / 1024) + 3 < cfg0.N := by rw [hN]; omega
  refine ⟨⟨16 * ((i 0).val / 1024) + 4 * ((i 1).val / 1024) + 3, hlt⟩, (flush0_2 _).mpr ?_, ?_⟩
  · show (16 * ((i 0).val / 1024) + 4 * ((i 1).val / 1024) + 3) % 4 = 3
    omega
  · obtain ⟨-, -, -, -, e4, e5⟩ := index_facts0 ⟨16 * ((i 0).val / 1024) + 4 * ((i 1).val / 1024) + 3, hlt⟩
    rw [mem_blk0_2]
    intro a
    match a with
    | ⟨0, _⟩ =>
      show win0_2.index _ (0 : Fin 2) * 1024 ≤ (i 0).val ∧ (i 0).val < win0_2.index _ (0 : Fin 2) * 1024 + 1024
      rw [e4]
      show (16 * ((i 0).val / 1024) + 4 * ((i 1).val / 1024) + 3) / 16 * 1024 ≤ (i 0).val
        ∧ (i 0).val < (16 * ((i 0).val / 1024) + 4 * ((i 1).val / 1024) + 3) / 16 * 1024 + 1024
      omega
    | ⟨1, _⟩ =>
      show win0_2.index _ (1 : Fin 2) * 1024 ≤ (i 1).val ∧ (i 1).val < win0_2.index _ (1 : Fin 2) * 1024 + 1024
      rw [e5]
      show (16 * ((i 0).val / 1024) + 4 * ((i 1).val / 1024) + 3) / 4 % 4 * 1024 ≤ (i 1).val
        ∧ (i 1).val < (16 * ((i 0).val / 1024) + 4 * ((i 1).val / 1024) + 3) / 4 % 4 * 1024 + 1024
      omega

end Cert.KernelIdeal.Hand

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.BlockSum.lean ====
/-
  A row of 4096 entries summed in four consecutive blocks of 1024 entries: the sum over the blocks of the sums inside
  each block is the sum over the whole row. It holds on the extended reals because only commutativity and associativity
  of addition are used (no cancellation, no finiteness).
-/
import Mathlib
import proofs.«124898_j3556232922249_2_alg».proof.Proof.LibBlockSum

open scoped BigOperators

namespace Cert.DenseSoftmax

/-- Entry `k` of block `a` sits at position `a * 1024 + k` of the row; summing block by block is summing the row. -/
theorem sum_blocks (f : Fin 4096 → EReal) (g : Fin 4 → Fin 1024 → Fin 4096)
    (hg : ∀ a k, (g a k).val = a.val * 1024 + k.val) :
    ∑ a : Fin 4, ∑ k : Fin 1024, f (g a k) = ∑ k : Fin 4096, f k := by
  refine Eq.trans ?_ (Cert.Lib.BlockSum.sum_fin_mul_fin 4 1024 (fun i : Fin (4 * 1024) => f i)).symm
  refine Finset.sum_congr rfl fun a _ => Finset.sum_congr rfl fun k _ => ?_
  refine congrArg f (Fin.ext ?_)
  rw [hg a k]
  show a.val * 1024 + k.val = k.val + 1024 * a.val
  omega

end Cert.DenseSoftmax
-- ==== Proof.DenseChain.lean ====
/-
  The dense layer's sum over the 4096 shared coordinates, taken in four consecutive blocks of 1024 and added one block
  after the other onto zero, is the whole sum: on the extended reals addition is associative and commutative and zero is
  neutral, which is all the regrouping uses.
-/
import proofs.«124898_j3556232922249_2_alg».proof.Proof.Spec
import proofs.«124898_j3556232922249_2_alg».proof.Proof.BlockSum

noncomputable section

open scoped BigOperators

namespace Cert.DenseSoftmax

open Idealize.ShloMosaic Idealize.ShloMosaic.ValueIdx

/-- Row `r` of `x` against row `n` of `w`, accumulated block by block from zero, `d a kk` being place `kk` of block
    `a` of the shared axis: the dense layer's entry. -/
theorem chain_eq_dense (x : (⟨2, ![8192, 4096]⟩ : Shape).Idx → EReal) (w : (⟨2, ![4096, 4096]⟩ : Shape).Idx → EReal)
    (r : Fin 8192) (n : Fin 4096) (d : Fin 4 → Fin 1024 → Fin 4096)
    (hd : ∀ a kk, (d a kk).val = a.val * 1024 + kk.val) :
    (((0 + ∑ kk : Fin 1024, x (ix2 r (d 0 kk)) * w (ix2 n (d 0 kk)))
          + ∑ kk : Fin 1024, x (ix2 r (d 1 kk)) * w (ix2 n (d 1 kk)))
        + ∑ kk : Fin 1024, x (ix2 r (d 2 kk)) * w (ix2 n (d 2 kk)))
      + ∑ kk : Fin 1024, x (ix2 r (d 3 kk)) * w (ix2 n (d 3 kk))
      = dense x w r n := by
  rw [zero_add]
  exact (Fin.sum_univ_four fun a : Fin 4 => ∑ kk : Fin 1024, x (ix2 r (d a kk)) * w (ix2 n (d a kk))).symm.trans
    (sum_blocks (fun k => x (ix2 r k) * w (ix2 n k)) d hd)

end Cert.DenseSoftmax

end
-- ==== Proof.IdealMatmulValue.lean ====
/-
  What the first region leaves in its output array, on the extended reals: at (r, n) the GELU of the dense layer's entry,
  row r of the left factor against row n of the right factor over all 4096 shared coordinates.

  A block of the output is written back at the last of the four points of a contraction. There the output's buffer holds
  the GELU of the accumulator, the accumulator is the four points' sums added in order onto zero, each point's sum is
  the products over one block of 1024 shared coordinates read off the two arrays, and the four blocks together are the
  whole shared axis. The blocks written back cover the array.
-/
import proofs.«124898_j3556232922249_2_alg».proof.Proof.IdealMatmulChain
import proofs.«124898_j3556232922249_2_alg».proof.Proof.IdealMatmulBlocks
import proofs.«124898_j3556232922249_2_alg».proof.Proof.DenseChain

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two factors as the region finds them, as matrices of extended reals. -/
abbrev leftArr (c : Dev nD) : (⟨2, ![8192, 4096]⟩ : Shape).Idx → EReal := V c main_v0
abbrev rightArr (c : Dev nD) : (⟨2, ![4096, 4096]⟩ : Shape).Idx → EReal := V c main_v1

/-- Place `kk` of block `a` of the shared axis. -/
def depthOf (a : Fin 4) (kk : Fin 1024) : Fin 4096 :=
  ⟨a.val * 1024 + kk.val, by have := a.isLt; have := kk.isLt; omega⟩

theorem depthOf_val (a : Fin 4) (kk : Fin 1024) : (depthOf a kk).val = a.val * 1024 + kk.val := rfl

/-- The sum a point adds, read off the arrays: the point is block `a` of the contraction that ends at position `n + 3`,
    so its rows are that contraction's rows and its shared coordinates are block `a` of the shared axis. -/
theorem stepTerm_eq (c : Dev nD) (n : ℕ) (hn : n + 3 < cfg0.N) (hmod : n % 4 = 0) (s : Fin cfg0.N) (a : Fin 4)
    (hs : s.val = n + a.val) (p q : Fin 1024) :
    stepTerm V c s p q
      = ∑ kk : Fin 1024, leftArr V c (ix2 (leftRow ⟨n + 3, hn⟩ p) (depthOf a kk))
          * rightArr V c (ix2 (rightRow ⟨n + 3, hn⟩ q) (depthOf a kk)) := by
  have ha := a.isLt
  unfold stepTerm
  refine Finset.sum_congr rfl fun kk _ => ?_
  have hl : leftBlk V c s (ix2 p kk) = leftArr V c (ix2 (leftRow ⟨n + 3, hn⟩ p) (depthOf a kk)) :=
    block0_0_apply V c s p kk (leftRow ⟨n + 3, hn⟩ p) (depthOf a kk)
      (by show 1024 * ((n + 3) / 16) + p.val = s.val / 16 * 1024 + p.val; omega)
      (by show a.val * 1024 + kk.val = s.val % 4 * 1024 + kk.val; omega)
  have hr : rightBlk V c s (ix2 q kk) = rightArr V c (ix2 (rightRow ⟨n + 3, hn⟩ q) (depthOf a kk)) :=
    block0_1_apply V c s q kk (rightRow ⟨n + 3, hn⟩ q) (depthOf a kk)
      (by show 1024 * ((n + 3) / 4 % 4) + q.val = s.val / 4 % 4 * 1024 + q.val; omega)
      (by show a.val * 1024 + kk.val = s.val % 4 * 1024 + kk.val; omega)
  rw [hl, hr]

/-- The accumulator after the last point of a contraction: the dense layer's entry. -/
theorem acc_last_eq_dense (c : Dev nD) (n : ℕ) (hn : n + 3 < cfg0.N) (hmod : n % 4 = 0) (p q : Fin 1024) :
    (holdsAt0 V c (n + 3) hn).2 (ix2 p q)
      = Cert.DenseSoftmax.dense (leftArr V c) (rightArr V c) (leftRow ⟨n + 3, hn⟩ p) (rightRow ⟨n + 3, hn⟩ q) := by
  rw [acc_chain V c n hn hmod p q,
    stepTerm_eq V c n hn hmod ⟨n, by omega⟩ 0 rfl p q, stepTerm_eq V c n hn hmod ⟨n + 1, by omega⟩ 1 rfl p q,
    stepTerm_eq V c n hn hmod ⟨n + 2, by omega⟩ 2 rfl p q, stepTerm_eq V c n hn hmod ⟨n + 3, hn⟩ 3 rfl p q]
  exact Cert.DenseSoftmax.chain_eq_dense (leftArr V c) (rightArr V c) (leftRow ⟨n + 3, hn⟩ p) (rightRow ⟨n + 3, hn⟩ q)
    depthOf depthOf_val

/-- At the last point of a contraction the output's buffer holds the GELU of the accumulator, entry by entry. -/
theorem out_last_apply (c : Dev nD) (t : Fin cfg0.N) (h0 : ¬t.val % 4 = 0) (h3 : t.val % 4 = 3) (y : S1024x1024.Idx) :
    (holdsAt0 V c t.val t.isLt).1 y = Cert.DenseSoftmax.gelu ((holdsAt0 V c t.val t.isLt).2 y) := by
  rw [holdsAt0_C V c t h0 h3]
  dsimp only
  rw [outC_apply, accC_eq]

/-- The output array as one function of the two factors: at (r, n) the GELU of the dense layer's entry. -/
abbrev logitArr (c : Dev nD) : S8192x4096.Idx → Elt Ideal .bf16 :=
  fun i => Cert.DenseSoftmax.logit (V c main_v0) (V c main_v1) (i 0) (i 1)

/-- What a point that writes its block back writes is that block of the function. -/
theorem flushed0_2_eq (c : Dev nD) (t : Fin cfg0.N) (hf : (cfg0.win 2).flush t = true) :
    (dat0 V c).flushed 2 t = ((cfg0.win 2).blk t).view.read (Elt Ideal) (logitArr V c) := by
  have h3 : t.val % 4 = 3 := (flush0_2 t).mp hf
  have h0 : ¬t.val % 4 = 0 := by omega
  show (cfg0.win 2).cut (grid0.coords t) ((dat0 V c).after 2 t) = _
  rw [after0_2]
  refine funext fun (j : S1024x1024.Idx) => ?_
  obtain ⟨p, q, rfl⟩ : ∃ (p q : Fin 1024), j = ix2 p q := ⟨j 0, j 1, eq_ix2 j⟩
  refine Eq.trans ?_ (out_block_read (logitArr V c) t p q).symm
  show (holdsAt0 V c t.val t.isLt).1 (ix2 p q)
    = Cert.DenseSoftmax.gelu (Cert.DenseSoftmax.dense (V c main_v0) (V c main_v1) (leftRow t p) (outCol t q))
  rw [out_last_apply V c t h0 h3]
  refine congrArg Cert.DenseSoftmax.gelu ?_
  obtain ⟨tv, ht⟩ := t
  obtain ⟨n, rfl⟩ : ∃ n, tv = n + 3 := ⟨tv - 3, by have : tv % 4 = 3 := h3; omega⟩
  exact acc_last_eq_dense V c n ht (by have : (n + 3) % 4 = 3 := h3; omega) p q

/-- THE FIRST REGION'S OUTPUT ARRAY: the GELU of the dense layer, entry by entry. -/
theorem region0_array (c : Dev nD) :
    (dat0 (F := Ideal) V c).arrAt 2 cfg0.N
      = fun i => Cert.DenseSoftmax.logit (V c main_v0) (V c main_v1) (i 0) (i 1) :=
  (dat0 V c).arrAt_eq_of_cover 2 (logitArr V c) (flushed0_2_eq V c) cover0_2

/-- The same at coordinates (r, n). -/
theorem region0_array_apply (c : Dev nD) (r : Fin 8192) (n : Fin 4096) :
    (dat0 (F := Ideal) V c).arrAt 2 cfg0.N (ix2 r n) = Cert.DenseSoftmax.logit (V c main_v0) (V c main_v1) r n :=
  congrFun (region0_array V c) (ix2 r n)

end Cert.KernelIdeal.Hand

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.PaySoftmax.lean ====
/-
  The second kernel's payload read at an index, on the extended reals: at (p, q) it is the softmax of row p of the
  block it reads, taken at entry q, plus entry q of the bias row. The row's maximum is the fold of max from the word for
  minus infinity over the row's 4096 entries; it and the row's sum of exponentials are formed as vectors of 256 entries,
  laid as a column of 256 rows and spread across the 4096 lanes; widening the 16-bit entries is the identity on the
  extended reals.
-/
import proofs.«124898_j3556232922249_2_alg».proof.Proof.Gen.KernelIdeal.Skeleton
import proofs.«124898_j3556232922249_2_alg».proof.Proof.Spec
import proofs.«124898_j3556232922249_2_alg».proof.Proof.LibColumn
import proofs.«124898_j3556232922249_2_alg».proof.Proof.LibLastAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-- The shifted exponentials at (p, k): exp of the entry less the maximum of row p, the maximum being the vector
    maximum along the last axis laid as a column and spread across the lanes. -/
theorem exp_shift_apply (x : FVec Ideal S256x4096 .f32) (h : S256x4096.Reduces [1] S256) (hφ : FKind.Formats .f32)
    (hacc : (0xFF800000#32 : BitVec 32) = FKind.maximumf.neutral .f32 hφ)
    (hc : S256.ShapeCasts S256x1) (hb : S256x1.Broadcasts S256x4096) (p : Fin 256) (k : Fin 4096) :
    exp (subf x (broadcastTo S256x4096
        (shapeCast S256x1 (multiReduction .maximumf [1] S256 x 0xFF800000#32 h hφ hacc) hc) hb)) (ix2 p k)
      = Ideal.exp (x (ix2 p k) - Cert.DenseSoftmax.rowMax fun n => x (ix2 p n)) := by
  show Ideal.exp (x (ix2 p k) - broadcastTo S256x4096
        (shapeCast S256x1 (multiReduction .maximumf [1] S256 x 0xFF800000#32 h hφ hacc) hc) hb (ix2 p k)) = _
  refine congrArg (fun m : EReal => Ideal.exp (x (ix2 p k) - m)) ?_
  refine (Cert.LibColumn.broadcastTo_a1_ab_apply _ hb p k).trans ?_
  refine (Cert.LibColumn.shapeCast_a_a1_apply _ hc p 0).trans ?_
  exact Cert.LibLastAxis.max_last_apply x 0xFF800000#32 h hφ hacc p

/-- The payload at (p, q): the softmax of row p at entry q, plus the bias row's entry q. -/
theorem pay_softmax (v0 : Vec Ideal S256x4096 .bf16) (v12 : Vec Ideal S1x4096 .f32) (p : Fin 256) (q : Fin 4096) :
    k1_pay1 v0 v12 (ix2 p q)
      = Cert.DenseSoftmax.softmaxAt (fun n => v0 (ix2 p n)) q + v12 (ix2 (0 : Fin 1) q) := by
  unfold k1_pay1
  rw [shapeCast_self v0, shapeCast_self v12]
  refine (addf_apply _ _ (ix2 p q)).trans ?_
  refine congrArg₂ (fun a b : EReal => a + b) ?_ (broadcastTo_1b_ab_apply v12 _ p q)
  refine (divf_apply _ _ (ix2 p q)).trans ?_
  refine congrArg₂ Ideal.div (exp_shift_apply v0 _ _ _ _ _ p q) ?_
  refine (Cert.LibColumn.broadcastTo_a1_ab_apply _ _ p q).trans ?_
  refine (Cert.LibColumn.shapeCast_a_a1_apply _ _ p 0).trans ?_
  refine (Cert.LibColumn.sum_last_apply _ _ _ _ p).trans ?_
  exact Finset.sum_congr rfl fun k _ => exp_shift_apply v0 _ _ _ _ _ p k

end Cert.KernelIdeal.PayValue

end
-- ==== Proof.IdealSoftmaxValue.lean ====
/-
  What the second kernel region leaves in its output array, on the extended reals. Each of the 32 grid points takes 256
  rows of the activations (rows 256·t … 256·t + 255 at point t) and the whole bias row, and writes back, into the same 256
  rows of the output, the row softmax of the activations plus the bias. Every row of the output lies in exactly the block of
  the point r / 256, so after the region the output array is, entry by entry, the softmax of the activations' row at that
  entry plus the bias there.
-/
import proofs.«124898_j3556232922249_2_alg».proof.Proof.IdealSoftmaxBody
import proofs.«124898_j3556232922249_2_alg».proof.Proof.PaySoftmax
import proofs.«124898_j3556232922249_2_alg».proof.Proof.Spec
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! ## The one store, read back -/

theorem corner1 : (![0, 0] : Fin 2 → Nat) = fun _ => 0 := funext fun a => by fin_cases a <;> rfl

/-- The output's staging buffer after the body holds the payload of the two loaded blocks: the store and both loads go
    through whole-block rectangles at the zero corner. -/
theorem softOut_eq {F : FTy → Type} [FloatOps F] (x0 : Vec F S256x4096 .bf16) (x1 : Vec F S1x4096 .f32) :
    softOut x0 x1 = k1_pay1 x0 x1 := by
  unfold softOut
  rw [View.canon_unit_zero corner1]
  simp only [View.ld_unit_zero (S := S256x4096) corner1, View.ld_unit_zero (S := S1x4096) corner1]

/-! ## Where the blocks sit -/

/-- The three windows' block indices at point t: the activations' and the output's blocks are block t of rows, the bias
    row's block is the whole row. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the block of point t is row 256·t + p of the array. -/
def rowOf (t : Fin cfg1.N) (p : Fin 256) : Fin 8192 :=
  ⟨256 * t.val + p.val, by have hN : cfg1.N = 32 := N_1; have := t.isLt; have := p.isLt; omega⟩

variable (V : (c : Dev nD) → (b : Ref sig .tc) → Buf (Elt Ideal) ((c : Thread nD τ).loc b))

/-- The activations' block at point t, entry (p, q): the array's entry (256·t + p, q). -/
theorem block1_0_apply (c : Dev nD) (t : Fin cfg1.N) (p : Fin 256) (q : Fin 4096) :
    (blockAt1 V c 0 t : Vec Ideal S256x4096 .bf16) (ix2 p q) = V c main_v2 (ix2 (rowOf t p) q) := by
  obtain ⟨e0, e1, -⟩ := index_facts1 t
  unfold blockAt1
  rw [View.read_apply]
  show V c main_v2 (((cfg1.win 0).blk t).view.emb (ix2 p q)) = V c main_v2 (ix2 (rowOf t p) q)
  refine congrArg (V c main_v2) (funext fun a => Fin.ext ?_)
  match a with
  | ⟨0, _⟩ => show win1_0.index t (0 : Fin 2) * 256 + 1 * p.val = 256 * t.val + p.val; rw [e0]; omega
  | ⟨1, _⟩ => show win1_0.index t (1 : Fin 2) * 4096 + 1 * q.val = q.val; rw [e1]; omega

/-- The bias row's block at any point, entry (0, q): the row's entry (0, q). -/
theorem block1_1_apply (c : Dev nD) (t : Fin cfg1.N) (q : Fin 4096) :
    (blockAt1 V c 1 t : Vec Ideal S1x4096 .f32) (ix2 (0 : Fin 1) q) = V c main_v3 (ix2 (0 : Fin 1) q) := by
  obtain ⟨-, -, e2, e3, -⟩ := index_facts1 t
  unfold blockAt1
  rw [View.read_apply]
  show V c main_v3 (((cfg1.win 1).blk t).view.emb (ix2 (0 : Fin 1) q)) = V c main_v3 (ix2 (0 : Fin 1) q)
  refine congrArg (V c main_v3) (funext fun a => Fin.ext ?_)
  match a with
  | ⟨0, _⟩ => show win1_1.index t (0 : Fin 2) * 1 + 1 * 0 = 0; rw [e2]
  | ⟨1, _⟩ => show win1_1.index t (1 : Fin 2) * 4096 + 1 * q.val = q.val; rw [e3]; omega

/-! ## The output array as one function of the two arrays the region reads -/

/-- Entry (r, n): the softmax of row r of the activations at n, plus the bias at n. -/
def softAt (c : Dev nD) (r : Fin 8192) (n : Fin 4096) : EReal :=
  Cert.DenseSoftmax.softmaxAt (fun k => V c main_v2 (ix2 r k)) n + V c main_v3 (ix2 (0 : Fin 1) n)

/-- The whole array. -/
def softArray (c : Dev nD) : S8192x4096.Idx → EReal := fun i => softAt V c (i 0) (i 1)

theorem softArray_ix2 (c : Dev nD) (r : Fin 8192) (n : Fin 4096) : softArray V c (ix2 r n) = softAt V c r n := rfl

/-- The payload of the two blocks of point t, at (p, q), is the array's function at (256·t + p, q). -/
theorem point_value (c : Dev nD) (t : Fin cfg1.N) (p : Fin 256) (q : Fin 4096) :
    k1_pay1 (blockAt1 V c 0 t : Vec Ideal S256x4096 .bf16) (blockAt1 V c 1 t : Vec Ideal S1x4096 .f32) (ix2 p q)
      = softAt V c (rowOf t p) q := by
  rw [Cert.KernelIdeal.PayValue.pay_softmax, block1_1_apply]
  unfold softAt
  refine congrArg (fun row : Fin 4096 → EReal => Cert.DenseSoftmax.softmaxAt row q + V c main_v3 (ix2 (0 : Fin 1) q)) ?_
  exact funext fun n => block1_0_apply V c t p n

/-- The output block's entry (p, q) at point t sits at (256·t + p, q) of the array. -/
theorem out_emb (t : Fin cfg1.N) (p : Fin 256) (q : Fin 4096) :
    ((cfg1.win 2).blk t).view.emb (ix2 p q) = ix2 (rowOf t p) q := by
  obtain ⟨-, -, -, -, e4, e5⟩ := index_facts1 t
  refine funext fun a => Fin.ext ?_
  match a with
  | ⟨0, _⟩ => show win1_2.index t (0 : Fin 2) * 256 + 1 * p.val = 256 * t.val + p.val; rw [e4]; omega
  | ⟨1, _⟩ => show win1_2.index t (1 : Fin 2) * 4096 + 1 * q.val = q.val; rw [e5]; omega

/-- What point t writes back is its block of the array's function. -/
theorem flushed1_2_eq (c : Dev nD) (t : Fin cfg1.N) :
    (dat1 V c).flushed 2 t = ((cfg1.win 2).blk t).view.read (Elt Ideal) (softArray V c) := by
  show (cfg1.win 2).cut (grid1.coords t) ((dat1 V c).after 2 t) = _
  rw [after1_2, softOut_eq]
  show (k1_pay1 (blockAt1 V c 0 t) (blockAt1 V c 1 t) : Vec Ideal S256x4096 .f32)
    = fun y : S256x4096.Idx => softArray V c (((cfg1.win 2).blk t).view.emb y)
  funext y
  obtain ⟨p, q, rfl⟩ : ∃ (p : Fin 256) (q : Fin 4096), y = ix2 p q := ⟨y 0, y 1, eq_ix2 y⟩
  rw [point_value, out_emb, softArray_ix2]

/-- An index of the output array is in point t's block iff each coordinate is in the block's range on its axis. -/
theorem mem_blk1_2 (t : Fin cfg1.N) (i : S8192x4096.Idx) :
    i ∈ ((cfg1.win 2).blk t).view.set ↔ ∀ a : Fin 2, win1_2.index t a * S256x4096.size a ≤ (i a).val
      ∧ (i a).val < win1_2.index t a * S256x4096.size a + S256x4096.size a := by
  show i ∈ ((View.whole main_v4).slice (win1_2.rect t)).set ↔ _
  rw [View.set_slice_whole, Rect.mem_set_unit]
  exact Iff.rfl

/-- Every index of the output array is in the block of the point its row falls in. -/
theorem cover1_2 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 32 := N_1
  refine ⟨⟨(i 0).val / 256, by rw [hN]; omega⟩, flush1_2 _, ?_⟩
  obtain ⟨-, -, -, -, e4, e5⟩ := index_facts1 ⟨(i 0).val / 256, by rw [hN]; omega⟩
  rw [mem_blk1_2]
  intro a
  match a with
  | ⟨0, _⟩ =>
    show win1_2.index _ (0 : Fin 2) * 256 ≤ (i 0).val ∧ (i 0).val < win1_2.index _ (0 : Fin 2) * 256 + 256
    rw [e4]; show (i 0).val / 256 * 256 ≤ (i 0).val ∧ (i 0).val < (i 0).val / 256 * 256 + 256; omega
  | ⟨1, _⟩ =>
    show win1_2.index _ (1 : Fin 2) * 4096 ≤ (i 1).val ∧ (i 1).val < win1_2.index _ (1 : Fin 2) * 4096 + 4096
    rw [e5]; omega

/-- After the region the output array holds, entry by entry, the softmax of the activations' row plus the bias. -/
theorem region1_array (c : Dev nD) : (dat1 (F := Ideal) V c).arrAt 2 cfg1.N = softArray V c :=
  (dat1 V c).arrAt_eq_of_cover 2 (softArray V c) (fun t _ => flushed1_2_eq V c t) (cover1_2)

/-- The same, with the array's function written out. -/
theorem region1_array_fun (c : Dev nD) :
    (dat1 (F := Ideal) V c).arrAt 2 cfg1.N
      = fun i : S8192x4096.Idx => Cert.DenseSoftmax.softmaxAt (fun n => V c main_v2 (ix2 (i 0 : Fin 8192) n)) (i 1)
          + V c main_v3 (ix2 (0 : Fin 1) (i 1 : Fin 4096)) :=
  region1_array V c

/-- The same, read at row r and column n. -/
theorem region1_array_apply (c : Dev nD) (r : Fin 8192) (n : Fin 4096) :
    (dat1 (F := Ideal) V c).arrAt 2 cfg1.N (ix2 r n)
      = Cert.DenseSoftmax.softmaxAt (fun k => V c main_v2 (ix2 r k)) n + V c main_v3 (ix2 (0 : Fin 1) n) := by
  rw [region1_array]; rfl

end Cert.KernelIdeal.Hand

end
-- ==== Proof.IdealValue.lean ====
/-
  The idealized kernel's result array is the specification of the launch arguments. The second region leaves, at
  (r, n), the softmax of row r of its activations at n plus entry n of its bias row; its activations are the first
  region's result, which at (r, n) is the GELU of row r of its left operand against row n of its right operand; the
  operands are the two matrices and the bias row is the bias vector. So the result is the softmax along each row of the
  GELU of the dense layer, plus the bias.
-/
import proofs.«124898_j3556232922249_2_alg».proof.Proof.IdealHostReads
import proofs.«124898_j3556232922249_2_alg».proof.Proof.IdealMatmulValue
import proofs.«124898_j3556232922249_2_alg».proof.Proof.IdealSoftmaxValue
import proofs.«124898_j3556232922249_2_alg».proof.Proof.Spec

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The second region's result array, in terms of the launch memory. -/
theorem kernel_result (c : Dev nD) :
    (dat1 (V3 m) c).arrAt 2 cfg1.N
      = Cert.DenseSoftmax.result (m ((c : Thread nD τ).loc main_arg0)) (m ((c : Thread nD τ).loc main_arg1)) (m ((c : Thread nD τ).loc main_arg2)) := by
  funext i
  obtain ⟨r, n, rfl⟩ : ∃ (r : Fin 8192) (n : Fin 4096), i = ix2 r n := ⟨i 0, i 1, eq_ix2 i⟩
  rw [region1_array_apply (V3 m) c r n, Cert.DenseSoftmax.result_ix2]
  unfold Cert.DenseSoftmax.resultAt
  rw [entry1_bias m c n]
  refine congrArg (· + _) (congrArg (fun row => Cert.DenseSoftmax.softmaxAt row n) (funext fun k => ?_))
  show V3 m c main_v2 (ix2 r k) = Cert.DenseSoftmax.logit _ _ r k
  rw [entry1_activations m c, region0_array_apply (V1 m) c r k, entry0_left m c, entry0_right m c]

/-- Every weakly fair execution of the idealized kernel ends with the result array at the specification of the launch
    arguments, and the arguments as launched. -/
theorem kernel_run : θ_run defs (onTc (τ := τ) (main (F := Ideal))) ⟨m, fun _ => 0, ρ⟩ (fun r => ∀ c : Dev nD,
      r.2.mem ((c.tc : Thread nD τ).loc main_v4)
        = Cert.DenseSoftmax.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_result m c), (h c).2⟩) (run_result (F := Ideal) m ρ)

end Cert.KernelIdeal.Hand

end
-- ==== Proof.RefLogit.lean ====
/-
  The reference's activations, read at row r and column n: the dense layer's entry there (row r of x against row n of w,
  summed over the 4096 shared coordinates) under the tanh-approximated GELU, with the program's four literals as the words they are.
-/
import proofs.«124898_j3556232922249_2_alg».proof.Proof.Gen.ReferenceIdeal.Read
import proofs.«124898_j3556232922249_2_alg».proof.Proof.Spec
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-- The left factor of the contraction at (r, n), coordinate k, sits at (r, k) of x. -/
theorem lidx_v0 (r : Fin 8192) (n k : Fin 4096) : lidx_main_v0 (ix2 r n) k = ix2 r k :=
  funext fun a => Fin.ext (by match a with | ⟨0, _⟩ => rfl | ⟨1, _⟩ => rfl)

/-- The right factor of the contraction at (r, n), coordinate k, sits at (n, k) of w. -/
theorem ridx_v0 (r : Fin 8192) (n k : Fin 4096) : ridx_main_v0 (ix2 r n) k = ix2 n k :=
  funext fun a => Fin.ext (by match a with | ⟨0, _⟩ => rfl | ⟨1, _⟩ => rfl)

/-- The contraction at (r, n) is the dense layer's entry. -/
theorem dense_read (a0 : FVec Ideal S8192x4096 .f32) (a1 : FVec Ideal S4096x4096 .f32) (r : Fin 8192) (n : Fin 4096) :
    val_main_v0 (F := Ideal) a0 a1 (ix2 r n) = Cert.DenseSoftmax.dense a0 a1 r n := by
  rw [val_main_v0_apply]
  exact Finset.sum_congr rfl fun k _ => by rw [lidx_v0, ridx_v0]

/-- The activations at (r, n) are the GELU of the dense layer's entry. -/
theorem logit_read (a0 : FVec Ideal S8192x4096 .f32) (a1 : FVec Ideal S4096x4096 .f32) (r : Fin 8192) (n : Fin 4096) :
    val_main_v13 (F := Ideal) a0 a1 (ix2 r n) = Cert.DenseSoftmax.logit a0 a1 r n := by
  rw [val_main_v13_apply, val_main_v2_apply, val_main_v12_apply, val_main_v1_apply, val_main_cst_apply,
    val_main_v11_apply, val_main_cst_2_apply, val_main_v10_apply, val_main_v9_apply, val_main_v8_apply, val_main_cst_1_apply,
    val_main_v7_apply, val_main_v6_apply, val_main_v5_apply, val_main_v4_apply, val_main_v3_apply, val_main_cst_0_apply,
    dense_read]
  simp only [Ideal.mulf_def, Ideal.addf_def, Ideal.hostUnary_tanh_def, Ideal.ofBits_def]
  rfl

end Cert.ReferenceIdeal.RefValue

end
-- ==== Proof.RefRowMax.lean ====
/-
  The reference's row maximum. A reduce with a maximum body over the second axis, from the word for minus infinity, is at
  row r the fold of max over the row's 4096 entries from that word; taking the maximum with that word once more changes
  nothing, a fold of max being at least its starting value.
-/
import proofs.«124898_j3556232922249_2_alg».proof.Proof.Gen.ReferenceIdeal.Read
import proofs.«124898_j3556232922249_2_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-- Row r with the column k put back is (r, k). -/
theorem lift_row (h : S8192x4096.Reduces [1] S8192) (r : Fin 8192) (k : Fin (S8192x4096.size 1)) :
    h.lift (ix1 r) k = ix2 r (⟨k.val, k.isLt⟩ : Fin 4096) := by
  funext c; apply Fin.ext
  fin_cases c <;> rfl

/-- A fold of max is at least the value it starts from. -/
theorem le_fold_max (b : EReal) (f : Fin 4096 → EReal) :
    b ≤ (Finset.univ : Finset (Fin 4096)).fold max b f :=
  (Finset.le_fold_max b).2 (Or.inl le_rfl)

/-- The reduce with a maximum body at row r: the fold of max over the row from the word for minus infinity. -/
theorem reduceMax_read (y : FVec Ideal S8192x4096 .f32) (r : Fin 8192) :
    Host.reduce FloatOps.maximumf y (val_main_cst_3 (F := Ideal)) reducesTo_S8192x4096_S8192_d1 h_S_ (ix1 r)
      = Cert.DenseSoftmax.rowMax fun k => y (ix2 r k) := by
  have h : S8192x4096.Reduces [1] S8192 := by decide
  rw [Host.reduce_eq_fold_single FloatOps.maximumf y _ reducesTo_S8192x4096_S8192_d1 h h_S_]
  have hf : (y ∘ h.lift (ix1 r)) = fun k : Fin 4096 => y (ix2 r k) := funext fun k => congrArg y (lift_row h r k)
  exact congrArg (fun f => Finset.fold max (Ideal.ofBits .f32 0xFF800000#32) f (Finset.univ : Finset (Fin 4096))) hf

/-- The row maximum the reference subtracts, at row r: the maximum of the word for minus infinity and the reduce's result
    there, which is the reduce's result. -/
theorem rowMax_read (a0 : FVec Ideal S8192x4096 .f32) (a1 : FVec Ideal S4096x4096 .f32) (r : Fin 8192) :
    val_main_v16 (F := Ideal) a0 a1 (ix1 r) = Cert.DenseSoftmax.rowMax fun k => val_main_v13 (F := Ideal) a0 a1 (ix2 r k) := by
  rw [val_main_v16_apply, val_main_v15_apply, val_main_cst_4_apply]
  unfold val_main_v14
  rw [reduceMax_read]
  exact max_eq_right (le_fold_max _ _)

end Cert.ReferenceIdeal.RefValue

end
-- ==== Proof.RefValue.lean ====
/-
  The reference program's result, read index by index on the extended reals, is the specification: the dense layer's
  GELU activations, soft-maxed along each row of 4096 entries (the row's maximum subtracted, the exponentials divided by
  their sum), plus the bias row. Its run then ends with the result array at that function of the argument arrays, the
  arguments unchanged.
-/
import proofs.«124898_j3556232922249_2_alg».proof.Defs
import proofs.«124898_j3556232922249_2_alg».proof.Proof.Gen.ReferenceIdeal.Read
import proofs.«124898_j3556232922249_2_alg».proof.Proof.Gen.Pre_finite_inputs
import proofs.«124898_j3556232922249_2_alg».proof.Proof.Spec
import proofs.«124898_j3556232922249_2_alg».proof.Proof.RefLogit
import proofs.«124898_j3556232922249_2_alg».proof.Proof.RefRowMax
import Idealize.ShloMosaic.Lib.ValueIdx
import Idealize.ShloMosaic.PureOps.Ideal.Laws
import Idealize.ShloMosaic.Lib.StableHlo.Run

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## Where the broadcasts and the row sum read their operands -/

/-- The row maximum spread over the matrix reads, at (r, n), the column of maxima at row r. -/
theorem idx_v17_v18 (r : Fin 8192) (n : Fin 4096) : idx_main_v17 (idx_main_v18 (ix2 r n)) = ix1 r :=
  funext fun a => Fin.ext (by match a with | ⟨0, _⟩ => rfl)

/-- The row sum spread over the matrix reads, at (r, n), the column of sums at row r. -/
theorem idx_v22_v23 (r : Fin 8192) (n : Fin 4096) : idx_main_v22 (idx_main_v23 (ix2 r n)) = ix1 r :=
  funext fun a => Fin.ext (by match a with | ⟨0, _⟩ => rfl)

/-- The row sum at row r runs over the entries (r, k). -/
theorem idx_v21 (r : Fin 8192) (k : Fin 4096) : idx_main_v21 (ix1 r) k = ix2 r k :=
  funext fun a => Fin.ext (by match a with | ⟨0, _⟩ => rfl | ⟨1, _⟩ => rfl)

/-- The bias row spread down the matrix reads, at (r, n), the bias at n. -/
theorem idx_v25_v26 (r : Fin 8192) (n : Fin 4096) : idx_main_v25 (idx_main_v26 (ix2 r n)) = ix1 n :=
  funext fun a => Fin.ext (by match a with | ⟨0, _⟩ => rfl)

/-! ## The softmax's numerator and denominator -/

/-- The exponential at (r, n): of the activation there less its row's maximum. -/
theorem exp_read (a0 : FVec Ideal S8192x4096 .f32) (a1 : FVec Ideal S4096x4096 .f32) (r : Fin 8192) (n : Fin 4096) :
    val_main_v20 (F := Ideal) a0 a1 (ix2 r n)
      = Ideal.exp (Cert.DenseSoftmax.logit a0 a1 r n - Cert.DenseSoftmax.rowMax (Cert.DenseSoftmax.logit a0 a1 r)) := by
  rw [val_main_v20_apply, val_main_v19_apply, val_main_v18_apply, val_main_v17_apply, idx_v17_v18, rowMax_read, logit_read]
  have hrow : (fun k : Fin 4096 => val_main_v13 (F := Ideal) a0 a1 (ix2 r k)) = Cert.DenseSoftmax.logit a0 a1 r :=
    funext fun k => logit_read a0 a1 r k
  rw [hrow]
  rfl

/-- The divisor at (r, n): the sum over row r of those exponentials (the reduce's initial value is the zero word). -/
theorem denom_read (a0 : FVec Ideal S8192x4096 .f32) (a1 : FVec Ideal S4096x4096 .f32) (r : Fin 8192) (n : Fin 4096) :
    val_main_v23 (F := Ideal) a0 a1 (ix2 r n)
      = ∑ k : Fin 4096, Ideal.exp (Cert.DenseSoftmax.logit a0 a1 r k - Cert.DenseSoftmax.rowMax (Cert.DenseSoftmax.logit a0 a1 r)) := by
  rw [val_main_v23_apply, val_main_v22_apply, idx_v22_v23, val_main_v21_apply, val_main_cst_5_apply]
  have hs : (∑ k : Fin 4096, val_main_v20 (F := Ideal) a0 a1 (idx_main_v21 (ix1 r) k))
      = ∑ k : Fin 4096, Ideal.exp (Cert.DenseSoftmax.logit a0 a1 r k - Cert.DenseSoftmax.rowMax (Cert.DenseSoftmax.logit a0 a1 r)) :=
    Finset.sum_congr rfl fun k _ => by rw [idx_v21, exp_read]
  rw [hs]
  show Ideal.ofBits .f32 0x00000000#32 + _ = _
  rw [Ideal.ofBits_zero_f32, zero_add]

/-! ## The result -/

/-- The reference's last stage, as one function of the three argument arrays, is the specification. -/
theorem ref_result (a0 : FVec Ideal S8192x4096 .f32) (a1 : FVec Ideal S4096x4096 .f32) (a2 : FVec Ideal S4096 .f32) :
    val_main_v27 (F := Ideal) a0 a1 a2 = Cert.DenseSoftmax.result a0 a1 a2 := by
  funext i
  obtain ⟨r, n, rfl⟩ : ∃ (r : Fin 8192) (n : Fin 4096), i = ix2 r n := ⟨i 0, i 1, eq_ix2 i⟩
  rw [Cert.DenseSoftmax.result_ix2, val_main_v27_apply, val_main_v24_apply, val_main_v26_apply, val_main_v25_apply,
    idx_v25_v26, exp_read, denom_read]
  rfl

/-- Every weakly fair execution of the reference terminates with its result array at the specification of the
    arguments' launch contents, the arguments unchanged. -/
theorem run_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v27)
            = Cert.DenseSoftmax.result (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v27_eq m c).trans (ref_result _ _ _)), (h c).2⟩)
    (Cert.ReferenceIdeal.Value.run (F := Ideal) m ρ)

/-- The reference runs to the end, faults nowhere and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate's claim. Both programs compute, on the extended reals, the softmax along each row of the GELU of a dense
  layer, plus a bias row: the kernel in two regions — the dense layer accumulated over four blocks of the contraction with
  the GELU applied after the last, then the row softmax and the bias a block of 256 rows at a time —, the reference in one
  line of whole-array operations. The sum over the contraction regroups without any finiteness (addition of extended reals
  is commutative and associative), the roundings are the identity at the exact values, and the literals are the same words
  on both sides; so the two results are one function of the arguments, index by index. The three frames: each program
  runs to the end on every weakly fair execution, faulting nowhere, and leaves its arguments as launched. The idealization
  rewrote nothing, so that conjunct is trivial.
-/
import proofs.«124898_j3556232922249_2_alg».proof.Defs
import proofs.«124898_j3556232922249_2_alg».proof.Proof.Gen.Kernel
import proofs.«124898_j3556232922249_2_alg».proof.Proof.Gen.KernelIdeal
import proofs.«124898_j3556232922249_2_alg».proof.Proof.Gen.ReferenceIdeal
import proofs.«124898_j3556232922249_2_alg».proof.Proof.Gen.Pre_finite_inputs
import proofs.«124898_j3556232922249_2_alg».proof.Proof.BitsRun
import proofs.«124898_j3556232922249_2_alg».proof.Proof.IdealValue
import proofs.«124898_j3556232922249_2_alg».proof.Proof.RefValue

noncomputable section

namespace Cert.Proof

open Idealize.ShloMosaic Idealize.SL.Sem

theorem frame_kernel : Cert.frame_Kernel := fun m ρ _ => Cert.Kernel.Hand.frame (F := Bits) m ρ
theorem frame_kernelIdeal : Cert.frame_KernelIdeal := fun m ρ _ => Cert.KernelIdeal.Hand.frame (F := Ideal) m ρ
theorem frame_reference : Cert.frame_ReferenceIdeal := Cert.ReferenceIdeal.RefValue.frame_ri

theorem preserves : Cert.preserves_Kernel_KernelIdeal := trivial

/-- From memories agreeing on the arguments both idealized programs end with the result array at the one specification
    of those arguments. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefValue.run_result m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
